-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x4096 : Shape := ⟨2, ![4096, 4096]⟩
abbrev S1x1x512 : Shape := ⟨3, ![1, 1, 512]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x1x512 : S_.BroadcastsInDim S1x1x512 (![] : Fin 0 → Fin S1x1x512.rank)
  reducesTo_S1x1x512_S_d0_1_2 : S1x1x512.ReducesTo [0, 1, 2] S_

variable [Facts]

def fn {F : FTy → Type} [FloatOps F] (main_arg0 : FVec F S4x4096x1024 .f32) (main_arg1 : FVec F S4096x4096 .f32) (main_arg2 : FVec F S1x1x512 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x1x512 .f32 := Host.absf main_arg2
  let main_cst_2 : FVec F S_ .f32 := constant S_ .f32 0x7F800000#32
  let main_v10 : FVec F S1x1x512 .f32 := broadcastInDim S1x1x512 ![] bcast_S_S1x1x512 main_cst_2
  let main_v11 : IVec S1x1x512 1 := cmpf .olt main_v9 main_v10
  let main_c_3 : IVec S_ 1 := constantI S_ 1 1#1
  let main_v12 : IVec S_ 1 := (fun x v => Host.reduce IntOp.andi x v reducesTo_S1x1x512_S_d0_1_2 h_S_) main_v11 main_c_3
  let main_v13 : IVec S_ 1 := andi main_v8 main_v12
  main_v13
-- ==== Kernel.lean ====
abbrev S4x4096x1024 : Shape := ⟨3, ![4, 4096, 1024]⟩
abbrev S4096x4096 : Shape := ⟨2, ![4096, 4096]⟩
abbrev S1x1x512 : Shape := ⟨3, ![1, 1, 512]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S4x256x512 : Shape := ⟨3, ![4, 256, 512]⟩
abbrev S256x512 : Shape := ⟨2, ![256, 512]⟩
abbrev S4x512x512 : Shape := ⟨3, ![4, 512, 512]⟩
abbrev S1x256x512 : Shape := ⟨3, ![1, 256, 512]⟩

abbrev nBuf : Space → Nat
  | .hbm => 18
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4096x4096, .f32⟩
  | .hbm, ⟨2, _⟩ => ⟨S1x1x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x512, .f32⟩
  | .hbm, ⟨14, _⟩ => ⟨S4x4096x512, .f32⟩
  | .hbm, ⟨15, _⟩ => ⟨S4x4096x512, .bf16⟩
  | .hbm, ⟨16, _⟩ => ⟨S4096x4096, .bf16⟩
  | .hbm, ⟨17, _⟩ => ⟨S4x4096x512, .f32⟩
  | .local _ .vmem, ⟨0, _⟩ => ⟨S4x256x512, .bf16⟩
  | .local _ .vmem, ⟨1, _⟩ => ⟨S4x256x512, .bf16⟩
  | .local _ .vmem, ⟨2, _⟩ => ⟨S4x4096x512, .bf16⟩
  | .local _ .vmem, ⟨3, _⟩ => ⟨S256x512, .bf16⟩
  | .local _ .vmem, ⟨4, _⟩ => ⟨S256x512, .bf16⟩
  | .local _ .vmem, ⟨5, _⟩ => ⟨S4x256x512, .f32⟩
  | .local _ .vmem, ⟨6, _⟩ => ⟨S4x256x512, .f32⟩
  | .local _ .vmem, ⟨7, _⟩ => ⟨S1x1x512, .f32⟩
  | .local _ .vmem, ⟨8, _⟩ => ⟨S4x256x512, .f32⟩
  | .local _ .vmem, ⟨9, _⟩ => ⟨S4x256x512, .f32⟩
  | .local _ .vmem, ⟨10, _⟩ => ⟨S4x256x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def k0_off1 (i : grid0.Coords) : Fin 3 → Nat :=
  let c0_3 : Index := 0#32
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_4 : Index := 0#32
  ![0, v7.toNat, 0]
def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_14 : BitVec 32 := 0#32
  let v26 : BitVec 1 := Scalar.cmpi .ne v25 c0_i32_14
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S4x4096x1024_S4x4096x512_0_0_0 : S4x4096x1024.Slices ![0, 0, 0] S4x4096x512
  slices_S4x4096x1024_S4x4096x512_0_0_512 : S4x4096x1024.Slices ![0, 0, 512] S4x4096x512
  reducesTo_S4x4096x512_S4x4096_d2 : S4x4096x512.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x512_0_1_2 : S4x4096x1.BroadcastsInDim S4x4096x512 (![0, 1, 2] : Fin 3 → Fin S4x4096x512.rank)
  bitsLt_bf16_f32 : FTy.bits .bf16 < FTy.bits .f32
  inb_S4x256x512_S4x256x512_0_0_0 : ∀ a, (![0, 0, 0] : Fin 3 → Nat) a + S4x256x512.size a ≤ S4x256x512.size a
  h_S4x256x512 : 0 < S4x256x512.numel
  shapeCasts_S4x256x512_S4x256x512 : S4x256x512.ShapeCasts S4x256x512
  h_S4x512x512 : 0 < S4x512x512.numel
  shapeCasts_S4x512x512_S4x512x512 : S4x512x512.ShapeCasts S4x512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S256x512_S1x256x512 : S256x512.ShapeCasts S1x256x512
  shapeCasts_S1x256x512_S1x256x512 : S1x256x512.ShapeCasts S1x256x512
  broadcasts_S1x256x512_S4x256x512 : S1x256x512.Broadcasts S4x256x512
  inb_S1x1x512_S1x1x512_0_0_0 : ∀ a, (![0, 0, 0] : Fin 3 → Nat) a + S1x1x512.size a ≤ S1x1x512.size a
  h_S1x1x512 : 0 < S1x1x512.numel
  broadcasts_S1x1x512_S4x256x512 : S1x1x512.Broadcasts S4x256x512
  dot_S4x256x512_S4x512x512_S4x256x512_2_2_1_1_0_0_wf : DotDims.WF S4x256x512 S4x512x512 S4x256x512 [2] [2] [1] [1] [0] [0]
  dot_S4x256x512_S4x512x512_S4x256x512_2_1_1_2_0_0_wf : DotDims.WF S4x256x512 S4x512x512 S4x256x512 [2] [1] [1] [2] [0] [0]
  hrank0 : 0 < grid0.rank
  k0_mult1_dvd : ∀ i : grid0.Coords, 512 ∣ (k0_mult1 i).toNat
  k0_off1_inb : ∀ i : grid0.Coords, ∀ a, (k0_off1 i) a + S4x512x512.size a ≤ S4x4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x512.size a ≤ S4x4096x512.size a
  hwx0_0 : ∀ i : grid0.Coords, EltTy.bits .bf16 = 32 ∨ (Rect.block (s := S4x4096x512) S4x256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096x512.size a ≤ S4x4096x512.size a
  hwx0_1 : ∀ i : grid0.Coords, EltTy.bits .bf16 = 32 ∨ (Rect.block (s := S4x4096x512) S4x4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S4096x4096.size a
  hwx0_2 : ∀ i : grid0.Coords, EltTy.bits .bf16 = 32 ∨ (Rect.block (s := S4096x4096) S256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x512.size a ≤ S4x4096x512.size a
  hwx0_3 : ∀ i : grid0.Coords, EltTy.bits .f32 = 32 ∨ (Rect.block (s := S4x4096x512) S4x256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S1x1x512.size a
  hwx0_4 : ∀ i : grid0.Coords, EltTy.bits .f32 = 32 ∨ (Rect.block (s := S1x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x512.size a ≤ S4x4096x512.size a
  hwx0_5 : ∀ i : grid0.Coords, EltTy.bits .f32 = 32 ∨ (Rect.block (s := S4x4096x512) S4x256x512.size (cc0_transform_5 i) (hinb0_5 i)).WholeWords (EltTy.packing .f32)

variable [Facts₀]

def dot_S4x256x512_S4x512x512_S4x256x512_2_2_1_1_0_0 : DotDims S4x256x512 S4x512x512 S4x256x512 where
  lhsContracting := [2]
  rhsContracting := [2]
  lhsNonContracting := [1]
  rhsNonContracting := [1]
  lhsBatch := [0]
  rhsBatch := [0]
  wf := dot_S4x256x512_S4x512x512_S4x256x512_2_2_1_1_0_0_wf
def dot_S4x256x512_S4x512x512_S4x256x512_2_1_1_2_0_0 : DotDims S4x256x512 S4x512x512 S4x256x512 where
  lhsContracting := [2]
  rhsContracting := [1]
  lhsNonContracting := [1]
  rhsNonContracting := [2]
  lhsBatch := [0]
  rhsBatch := [0]
  wf := dot_S4x256x512_S4x512x512_S4x256x512_2_1_1_2_0_0_wf

abbrev win0_0 : Pipeline.Window sig grid0 :=
  Pipeline.Window.ofSpec (Memref.whole main_v10) S4x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4x4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4x256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S4096x4096 : Shape := ⟨2, ![4096, 4096]⟩
abbrev S1x1x512 : Shape := ⟨3, ![1, 1, 512]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S1x4096x4096 : Shape := ⟨3, ![1, 4096, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x4096, .f32⟩
  | .hbm, ⟨2, _⟩ => ⟨S1x1x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x512, .f32⟩
  | .hbm, ⟨14, _⟩ => ⟨S4x4096x512, .f32⟩
  | .hbm, ⟨15, _⟩ => ⟨S4x4096x4096, .f32⟩
  | .hbm, ⟨16, _⟩ => ⟨S1x4096x4096, .f32⟩
  | .hbm, ⟨17, _⟩ => ⟨S4x4096x4096, .f32⟩
  | .hbm, ⟨18, _⟩ => ⟨S4x4096x4096, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S_, .f32⟩
  | .hbm, ⟨25, _⟩ => ⟨S4x4096x512, .f32⟩
  | .hbm, ⟨26, _⟩ => ⟨S4x4096x512, .f32⟩
  | .hbm, ⟨27, _⟩ => ⟨S_, .f32⟩
  | .hbm, ⟨28, _⟩ => ⟨S4x4096x512, .f32⟩
  | .hbm, ⟨29, _⟩ => ⟨S4x4096x512, .f32⟩
  | .hbm, ⟨30, _⟩ => ⟨S4x4096x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  slices_S4x4096x1024_S4x4096x512_0_0_0 : S4x4096x1024.Slices ![0, 0, 0] S4x4096x512
  slices_S4x4096x1024_S4x4096x512_0_0_512 : S4x4096x1024.Slices ![0, 0, 512] S4x4096x512
  reducesTo_S4x4096x512_S4x4096_d2 : S4x4096x512.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x512_0_1_2 : S4x4096x1.BroadcastsInDim S4x4096x512 (![0, 1, 2] : Fin 3 → Fin S4x4096x512.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  bcast_S1x1x512_S4x4096x512_0_1_2 : S1x1x512.BroadcastsInDim S4x4096x512 (![0, 1, 2] : Fin 3 → Fin S4x4096x512.rank)
  bcast_S_S4x4096x512 : S_.BroadcastsInDim S4x4096x512 (![] : Fin 0 → Fin S4x4096x512.rank)
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.BitsRegion.lean ====
/-
  The region of the contextualizer kernel as the launch finds it. Before the region the host lines split x
  into its two halves, divide the right half by max(‖row‖, ε) and narrow it and V; `V` names every buffer's
  contents after those lines. The body branches twice on the key-block coordinate k of the 16 × 8 grid:
  at k = 0 it clears the accumulator, at k = 7 it stores the gated product; both conditions are decided
  here in closed form over the 128 points (point t has k = t mod 8). The output window is written only
  at k = 7 and is idle elsewhere. Each input window's staging buffer holds its block at every point.
-/
import proofs.«122940_j84679575208503_2_alg».proof.Proof.Gen.Kernel.Launch
import proofs.«122940_j84679575208503_2_alg».proof.Proof.Gen.Kernel.Skeleton
import proofs.«122940_j84679575208503_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Every TensorCore buffer's contents once the host lines before the region have run. -/
abbrev V0 (c : Dev nD) : Valuation τ sig (Elt F) := StableHlo.after hostOps0 (fun b => m (c, b))
/-- The same, read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor

/-- @main is the host lines, then the region: it reaches the region holding the buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The two conditions of the body, over the grid -/

/-- The key-block coordinate is 0 (the accumulator is cleared): the body's first condition, its scalar chain spelt out. -/
abbrev firstKey (i : grid0.Coords) : Prop :=
  (Scalar.cmpi .ne (Scalar.extui (Scalar.cmpi .eq (BitVec.ofNat 32 (i 1).val) 0#32)) 0#32) = 1#1
/-- It holds at the points t with t mod 8 = 0. -/
theorem firstKey_iff : ∀ t : Fin cfg0.N, firstKey (grid0.coords t) ↔ t.val % 8 = 0 :=
  (by decide +kernel : ∀ t : Fin grid0.N, firstKey (grid0.coords t) ↔ t.val % 8 = 0)

/-- The key-block coordinate is 7 (the gated product is stored): the body's second condition. -/
abbrev lastKey (i : grid0.Coords) : Prop := k0_cond2 i = 1#1
/-- It holds at the points t with t mod 8 = 7. -/
theorem lastKey_iff : ∀ t : Fin cfg0.N, lastKey (grid0.coords t) ↔ t.val % 8 = 7 :=
  (by decide +kernel : ∀ t : Fin grid0.N, lastKey (grid0.coords t) ↔ t.val % 8 = 7)

/-! ## Where the output window is idle -/

/-- Away from k = 7 the body stores nothing into the output window: it is idle there, -/
theorem out_idle : ∀ t : Fin cfg0.N, ¬lastKey (grid0.coords t) → cfg0.idle 5 (grid0.coords t) = true := by decide +kernel
/-- and its block is not written back there. -/
theorem out_kept : ∀ t : Fin cfg0.N, ¬lastKey (grid0.coords t) → (cfg0.win 5).flush t = false := by decide +kernel
/-- At k = 7 it is live. -/
theorem out_live : ∀ t : Fin cfg0.N, lastKey (grid0.coords t) → cfg0.idle 5 (grid0.coords t) = false := by decide +kernel

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Inputs
variable {c : Dev nD} (dat : Dat τ (Elt F) Unit ℕ (UR sig nD τ) ℕ cfg0 c)

/-- The query rows' staging buffer holds their block at every point, fetched there or not, for any proof data
    whose array is the entry contents and whose body leaves the block in place. -/
theorem found_q (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The resident key rows likewise, -/
theorem found_k (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the block of V, -/
theorem found_v (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- the left half's rows, -/
theorem found_left (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- and the bias. -/
theorem found_bias (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end Inputs

/-! ## The staging memrefs at a point, and the accumulator -/

abbrev mq (t : Fin cfg0.N) : Memref sig .tc .vmem S4x256x512 .bf16 := win0_0.stage (cfg0.slots t 0)
abbrev hq (t : Fin cfg0.N) : (mq t).IsWhole := hstage0_0 ((cfg0.slots t 0).cast nbuf0_0)
abbrev mk (t : Fin cfg0.N) : Memref sig .tc .vmem S4x4096x512 .bf16 := win0_1.stage (cfg0.slots t 1)
abbrev hk (t : Fin cfg0.N) : (mk t).IsWhole := hstage0_1 ((cfg0.slots t 1).cast nbuf0_1)
abbrev mv (t : Fin cfg0.N) : Memref sig .tc .vmem S256x512 .bf16 := win0_2.stage (cfg0.slots t 2)
abbrev hv (t : Fin cfg0.N) : (mv t).IsWhole := hstage0_2 ((cfg0.slots t 2).cast nbuf0_2)
abbrev ml (t : Fin cfg0.N) : Memref sig .tc .vmem S4x256x512 .f32 := win0_3.stage (cfg0.slots t 3)
abbrev hl (t : Fin cfg0.N) : (ml t).IsWhole := hstage0_3 ((cfg0.slots t 3).cast nbuf0_3)
abbrev mb (t : Fin cfg0.N) : Memref sig .tc .vmem S1x1x512 .f32 := win0_4.stage (cfg0.slots t 4)
abbrev hb (t : Fin cfg0.N) : (mb t).IsWhole := hstage0_4 ((cfg0.slots t 4).cast nbuf0_4)
abbrev mo (t : Fin cfg0.N) : Memref sig .tc .vmem S4x256x512 .f32 := win0_5.stage (cfg0.slots t 5)
abbrev ho (t : Fin cfg0.N) : (mo t).IsWhole := hstage0_5 ((cfg0.slots t 5).cast nbuf0_5)
/-- The accumulator: a whole scoped buffer of the kernel's own, carried from point to point. -/
abbrev accM : Memref sig .tc .vmem S4x256x512 .f32 := Memref.whole cc0_scratch0
/-- Views through which the accumulator's and the output buffer's contents are stated. -/
abbrev accV : View sig .tc .vmem S4x256x512 .f32 := accM.view
abbrev outV : View sig .tc .vmem S4x256x512 .f32 := (Memref.whole cc0_stg5_0 : Memref sig .tc .vmem S4x256x512 .f32).view

/-- The core's scoped buffers that are no staging buffer are the accumulator alone, owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.Kernel.Region

end
-- ==== Proof.BitsRunFirst.lean ====
/-
  The body of the contextualizer kernel at a point whose key-block coordinate is 0. There the body clears the
  accumulator — whatever it held — and then adds the first key block's contribution: on whole staging buffers,
  the five inputs at their contents and the idle output buffer at what it held, the body runs to its end with
  the inputs and the output buffer untouched and the accumulator holding the pieces its two stores wrote.
-/
import proofs.«122940_j84679575208503_2_alg».proof.Proof.BitsRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at k = 0 (the last store first), with the run that
    leaves them: both conditions are decided by the point's hypotheses, the rest is loads and stores. -/
noncomputable def runFirst (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) :
    { LS : List (View.Piece (Elt F) S4x256x512 .f32) //
      ∀ (xi5 : Vec F S4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__contextualizer_kernel i arg2 harg2 arg3 harg3 arg4 harg4 arg5 harg5 arg6 harg6 arg7 harg7 arg8 harg8) K } := by
  refine ⟨?_, fun xi5 E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Region

end
-- ==== Proof.BitsRunMid.lean ====
/-
  The body of the contextualizer kernel at a point whose key-block coordinate is neither 0 nor 7: it adds the
  key block's contribution to the accumulator the point before left, and touches nothing else.
-/
import proofs.«122940_j84679575208503_2_alg».proof.Proof.BitsRunFirst

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the accumulator at 0 < k < 7, over the contents `xs` the point
    before left there, with the run that leaves them. -/
noncomputable def runMid (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) :
    { LS : List (View.Piece (Elt F) S4x256x512 .f32) //
      ∀ (xi5 : Vec F S4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__contextualizer_kernel i arg2 harg2 arg3 harg3 arg4 harg4 arg5 harg5 arg6 harg6 arg7 harg7 arg8 harg8) K } := by
  refine ⟨?_, fun xi5 E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Region

end
-- ==== Proof.BitsRunLast.lean ====
/-
  The body of the contextualizer kernel at a point whose key-block coordinate is 7: it adds the last key block's
  contribution to the accumulator, then stores into the output buffer the left half's rows times the logistic
  of the accumulator plus the bias.
-/
import proofs.«122940_j84679575208503_2_alg».proof.Proof.BitsRunMid

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer (held at anything before) and in the accumulator at
    k = 7, over the contents `xs` the point before left in the accumulator, with the run that leaves them. -/
noncomputable def runLast (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) :
    Σ' (LO : List (View.Piece (Elt F) S4x256x512 .f32)), { LS : List (View.Piece (Elt F) S4x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__contextualizer_kernel i arg2 harg2 arg3 harg3 arg4 harg4 arg5 harg5 arg6 harg6 arg7 harg7 arg8 harg8) K } := by
  refine ⟨?_, ?_, fun E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Region

end
-- ==== Proof.BitsData.lean ====
/-
  What the contextualizer kernel's buffers hold after each grid point, and the body's obligation to the pipeline.
  Point t has query block t / 8 and key block k = t mod 8. After a point with k = 0 the accumulator holds what
  the first run leaves; after any other point what that point's run leaves over the accumulator of the point
  before; the output buffer is written at k = 7 only. The invariant carried from point to point is the
  accumulator at those contents (at anything before the first point). The normalised right half is handed to
  the kernel twice — as the query rows' window and as the resident key rows' window — so each of the two windows
  holds half of that array's share; the other inputs hold theirs whole.
-/
import proofs.«122940_j84679575208503_2_alg».proof.Proof.BitsRunLast
import Idealize.ShloMosaic.Lib.Ring

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At k = 0 the accumulator's two stores cover it. -/
theorem firstAcc_cover (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) (y : S4x256x512.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S4x256x512.size (by sl_kernel_rfl) y
/-- What the point leaves in the accumulator: its pieces read back. -/
def firstAcc (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) : Vec F S4x256x512 .f32 :=
  accV.read (Elt F) (accV.writes (Elt F) accV.junk (runFirst c i arg2 harg2 arg3 harg3 arg4 harg4 arg5 harg5 arg6 harg6 arg7 harg7 arg8 harg8 hc0 hc1 x0 x1 x2 x3 x4).1)

/-- At 0 < k < 7 the accumulator's one store covers it. -/
theorem midAcc_cover (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) (y : S4x256x512.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S4x256x512.size (by sl_kernel_rfl) y
def midAcc (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) : Vec F S4x256x512 .f32 :=
  accV.read (Elt F) (accV.writes (Elt F) accV.junk (runMid c i arg2 harg2 arg3 harg3 arg4 harg4 arg5 harg5 arg6 harg6 arg7 harg7 arg8 harg8 hc0 hc1 x0 x1 x2 x3 x4 xs).1)

/-- At k = 7 the output buffer's one store covers it, -/
theorem lastOut_cover (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) (y : S4x256x512.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S4x256x512.size (by sl_kernel_rfl) y
def lastOut (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) : Vec F S4x256x512 .f32 :=
  outV.read (Elt F) (outV.writes (Elt F) outV.junk (runLast c i arg2 harg2 arg3 harg3 arg4 harg4 arg5 harg5 arg6 harg6 arg7 harg7 arg8 harg8 hc0 hc1 x0 x1 x2 x3 x4 xs).1)
/-- and so does the accumulator's. -/
theorem lastAcc_cover (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) (y : S4x256x512.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S4x256x512.size (by sl_kernel_rfl) y
def lastAcc (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) : Vec F S4x256x512 .f32 :=
  accV.read (Elt F) (accV.writes (Elt F) accV.junk (runLast c i arg2 harg2 arg3 harg3 arg4 harg4 arg5 harg5 arg6 harg6 arg7 harg7 arg8 harg8 hc0 hc1 x0 x1 x2 x3 x4 xs).2.1)

/-- The output buffer where no point's store is read: a placeholder nothing consults (the window is idle there). -/
def idleOut : Vec F S4x256x512 .f32 := outV.read (Elt F) outV.junk

/-! ## Point by point -/

/-- What the output buffer (first) and the accumulator (second) hold after the body at position `n`: by k = n mod 8
    the case's contents, at the point's staging memrefs and input blocks, over the accumulator position `n - 1` left. -/
def stateAt (c : Dev nD) : (n : ℕ) → n < cfg0.N → Vec F S4x256x512 .f32 × Vec F S4x256x512 .f32
  | 0, hn => (idleOut, firstAcc c (grid0.coords ⟨0, hn⟩) (mq ⟨0, hn⟩) (hq ⟨0, hn⟩) (mk ⟨0, hn⟩) (hk ⟨0, hn⟩) (mv ⟨0, hn⟩) (hv ⟨0, hn⟩) (ml ⟨0, hn⟩) (hl ⟨0, hn⟩) (mb ⟨0, hn⟩) (hb ⟨0, hn⟩) (mo ⟨0, hn⟩) (ho ⟨0, hn⟩) accM (Memref.isWhole_whole _) ((firstKey_iff ⟨0, hn⟩).mpr (Nat.zero_mod _)) (fun h => absurd ((lastKey_iff ⟨0, hn⟩).mp h) (show ¬(0 % 8 = 7) from by decide)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      (idleOut, firstAcc c (grid0.coords ⟨n + 1, hn⟩) (mq ⟨n + 1, hn⟩) (hq ⟨n + 1, hn⟩) (mk ⟨n + 1, hn⟩) (hk ⟨n + 1, hn⟩) (mv ⟨n + 1, hn⟩) (hv ⟨n + 1, hn⟩) (ml ⟨n + 1, hn⟩) (hl ⟨n + 1, hn⟩) (mb ⟨n + 1, hn⟩) (hb ⟨n + 1, hn⟩) (mo ⟨n + 1, hn⟩) (ho ⟨n + 1, hn⟩) accM (Memref.isWhole_whole _) ((firstKey_iff ⟨n + 1, hn⟩).mpr h0) (fun h => by have := (lastKey_iff ⟨n + 1, hn⟩).mp h; (try dsimp only at this); omega) (iblk m c 0 ⟨n + 1, hn⟩) (iblk m c 1 ⟨n + 1, hn⟩) (iblk m c 2 ⟨n + 1, hn⟩) (iblk m c 3 ⟨n + 1, hn⟩) (iblk m c 4 ⟨n + 1, hn⟩))
    else if h1 : (n + 1) % 8 = 7 then
      (lastOut c (grid0.coords ⟨n + 1, hn⟩) (mq ⟨n + 1, hn⟩) (hq ⟨n + 1, hn⟩) (mk ⟨n + 1, hn⟩) (hk ⟨n + 1, hn⟩) (mv ⟨n + 1, hn⟩) (hv ⟨n + 1, hn⟩) (ml ⟨n + 1, hn⟩) (hl ⟨n + 1, hn⟩) (mb ⟨n + 1, hn⟩) (hb ⟨n + 1, hn⟩) (mo ⟨n + 1, hn⟩) (ho ⟨n + 1, hn⟩) accM (Memref.isWhole_whole _) (fun h => h0 ((firstKey_iff ⟨n + 1, hn⟩).mp h)) ((lastKey_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (stateAt c n (Nat.lt_of_succ_lt hn)).2,
       lastAcc c (grid0.coords ⟨n + 1, hn⟩) (mq ⟨n + 1, hn⟩) (hq ⟨n + 1, hn⟩) (mk ⟨n + 1, hn⟩) (hk ⟨n + 1, hn⟩) (mv ⟨n + 1, hn⟩) (hv ⟨n + 1, hn⟩) (ml ⟨n + 1, hn⟩) (hl ⟨n + 1, hn⟩) (mb ⟨n + 1, hn⟩) (hb ⟨n + 1, hn⟩) (mo ⟨n + 1, hn⟩) (ho ⟨n + 1, hn⟩) accM (Memref.isWhole_whole _) (fun h => h0 ((firstKey_iff ⟨n + 1, hn⟩).mp h)) ((lastKey_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (stateAt c n (Nat.lt_of_succ_lt hn)).2)
    else
      (idleOut, midAcc c (grid0.coords ⟨n + 1, hn⟩) (mq ⟨n + 1, hn⟩) (hq ⟨n + 1, hn⟩) (mk ⟨n + 1, hn⟩) (hk ⟨n + 1, hn⟩) (mv ⟨n + 1, hn⟩) (hv ⟨n + 1, hn⟩) (ml ⟨n + 1, hn⟩) (hl ⟨n + 1, hn⟩) (mb ⟨n + 1, hn⟩) (hb ⟨n + 1, hn⟩) (mo ⟨n + 1, hn⟩) (ho ⟨n + 1, hn⟩) accM (Memref.isWhole_whole _) (fun h => h0 ((firstKey_iff ⟨n + 1, hn⟩).mp h)) (fun h => h1 ((lastKey_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (stateAt c n (Nat.lt_of_succ_lt hn)).2)

/-- At a point with k = 0. -/
theorem stateAt_first (c : Dev nD) (t : Fin cfg0.N) (h0 : t.val % 8 = 0) (h1 : ¬t.val % 8 = 7) :
    stateAt m c t.val t.isLt = (idleOut, firstAcc c (grid0.coords t) (mq t) (hq t) (mk t) (hk t) (mv t) (hv t) (ml t) (hl t) (mb t) (hb t) (mo t) (ho t) accM (Memref.isWhole_whole _) ((firstKey_iff t).mpr h0) (fun h => h1 ((lastKey_iff t).mp h)) (iblk m c 0 t) (iblk m c 1 t) (iblk m c 2 t) (iblk m c 3 t) (iblk m c 4 t)) := by
  obtain ⟨n, hn⟩ := t
  cases n with
  | zero => exact rfl
  | succ n => exact (dif_pos h0).trans rfl

/-- At a point with 0 < k < 7, over what the point before left. -/
theorem stateAt_mid (c : Dev nD) (t : Fin cfg0.N) (h0 : ¬t.val % 8 = 0) (h1 : ¬t.val % 8 = 7) :
    stateAt m c t.val t.isLt = (idleOut, midAcc c (grid0.coords t) (mq t) (hq t) (mk t) (hk t) (mv t) (hv t) (ml t) (hl t) (mb t) (hb t) (mo t) (ho t) accM (Memref.isWhole_whole _) (fun h => h0 ((firstKey_iff t).mp h)) (fun h => h1 ((lastKey_iff t).mp h)) (iblk m c 0 t) (iblk m c 1 t) (iblk m c 2 t) (iblk m c 3 t) (iblk m c 4 t) (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point with k = 7, over what the point before left. -/
theorem stateAt_last (c : Dev nD) (t : Fin cfg0.N) (h0 : ¬t.val % 8 = 0) (h1 : t.val % 8 = 7) :
    stateAt m c t.val t.isLt = (lastOut c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2,
      lastAcc c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant before position `n`: before the first point the accumulator at anything, afterwards at what the
    point before left in it. -/
def carried (c : Dev nD) : (n : ℕ) → n ≤ cfg0.N → sProp 𝕄
  | 0, _ => iprop(∃ d, owns (c : Thread nD τ) accM fullShare d)
  | n + 1, hn => owns (c : Thread nD τ) accM fullShare ((stateAt m c n hn).2)

theorem carried_zero (c : Dev nD) (n : ℕ) (h : n ≤ cfg0.N) (hz : n = 0) :
    carried m c n h = iprop(∃ d, owns (c : Thread nD τ) accM fullShare d) := by
  subst hz; rfl
theorem carried_succ (c : Dev nD) (n : ℕ) (hn : n < cfg0.N) :
    carried m c (n + 1) hn = owns (c : Thread nD τ) accM fullShare ((stateAt m c n hn).2) := rfl
theorem carried_pos (c : Dev nD) (n : ℕ) (h : n ≤ cfg0.N) (hz : n ≠ 0) :
    carried m c n h = owns (c : Thread nD τ) accM fullShare ((stateAt m c (n - 1) (by omega)).2) := by
  cases n with
  | zero => exact absurd rfl hz
  | succ n => rfl

/-! ## The pipeline's proof data -/

/-- The proof data on core `c`: the arrays as the region finds them; after the body each input's buffer at its
    block and the output's at `stateAt`; the carried accumulator; nothing owed; the normalised right half's share
    halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).1
  Φ t := carried m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (stateAt m c t.val t.isLt).1 := by dsimp only [dats]

theorem before_0 (c : Dev nD) (t : Fin cfg0.N) (d) : (dats m 0 c).before 0 t d = iblk m c 0 t :=
  found_q m (dats m 0 c) (A_eq m c 0) (after_0 m c) t d
theorem before_1 (c : Dev nD) (t : Fin cfg0.N) (d) : (dats m 0 c).before 1 t d = iblk m c 1 t :=
  found_k m (dats m 0 c) (A_eq m c 1) (after_1 m c) t d
theorem before_2 (c : Dev nD) (t : Fin cfg0.N) (d) : (dats m 0 c).before 2 t d = iblk m c 2 t :=
  found_v m (dats m 0 c) (A_eq m c 2) (after_2 m c) t d
theorem before_3 (c : Dev nD) (t : Fin cfg0.N) (d) : (dats m 0 c).before 3 t d = iblk m c 3 t :=
  found_left m (dats m 0 c) (A_eq m c 3) (after_3 m c) t d
theorem before_4 (c : Dev nD) (t : Fin cfg0.N) (d) : (dats m 0 c).before 4 t d = iblk m c 4 t :=
  found_bias m (dats m 0 c) (A_eq m c 4) (after_4 m c) t d

/-- The inputs are never idle. -/
theorem in_live0 : ∀ t : Fin cfg0.N, cfg0.idle 0 (grid0.coords t) = false := fun _ => rfl
theorem in_live1 : ∀ t : Fin cfg0.N, cfg0.idle 1 (grid0.coords t) = false := fun _ => rfl
theorem in_live2 : ∀ t : Fin cfg0.N, cfg0.idle 2 (grid0.coords t) = false := fun _ => rfl
theorem in_live3 : ∀ t : Fin cfg0.N, cfg0.idle 3 (grid0.coords t) = false := fun _ => rfl
theorem in_live4 : ∀ t : Fin cfg0.N, cfg0.idle 4 (grid0.coords t) = false := fun _ => rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mk t) fullShare ((dats m 0 c).before 1 t d))
    ∗ (∃ d, owns (c : Thread nD τ) (mv t) fullShare ((dats m 0 c).before 2 t d))
    ∗ (∃ d, owns (c : Thread nD τ) (ml t) fullShare ((dats m 0 c).before 3 t d))
    ∗ (∃ d, owns (c : Thread nD τ) (mb t) fullShare ((dats m 0 c).before 4 t d))
    ∗ (∃ d, owns (c : Thread nD τ) (mo t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; k = t mod 8 says which run applies; the invariant
    hands the run the accumulator (at anything where k = 0, else at what the point before left) and takes it back
    at this point's contents; the output buffer comes back untouched unless k = 7. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = carried m c (t.val + 1) t.isLt from rfl, carried_succ]
  have hN : t.val < 128 := lt_of_lt_of_eq t.isLt (show cfg0.N = 128 from N_0)
  by_cases h0 : t.val % 8 = 0
  · skip
    have h1 : ¬t.val % 8 = 7 := by omega
    rw [show (dats m 0 c).leavesExact 0 t = owns (c : Thread nD τ) (mq t) fullShare ((dats m 0 c).after 0 t) from by
      unfold Dat.leavesExact; rw [in_live0 t], after_0]
    rw [show (dats m 0 c).leavesExact 1 t = owns (c : Thread nD τ) (mk t) fullShare ((dats m 0 c).after 1 t) from by
      unfold Dat.leavesExact; rw [in_live1 t], after_1]
    rw [show (dats m 0 c).leavesExact 2 t = owns (c : Thread nD τ) (mv t) fullShare ((dats m 0 c).after 2 t) from by
      unfold Dat.leavesExact; rw [in_live2 t], after_2]
    rw [show (dats m 0 c).leavesExact 3 t = owns (c : Thread nD τ) (ml t) fullShare ((dats m 0 c).after 3 t) from by
      unfold Dat.leavesExact; rw [in_live3 t], after_3]
    rw [show (dats m 0 c).leavesExact 4 t = owns (c : Thread nD τ) (mb t) fullShare ((dats m 0 c).after 4 t) from by
      unfold Dat.leavesExact; rw [in_live4 t], after_4]
    rw [Dat.leavesExact_idle (dats m 0 c) 5 t (out_idle t (fun h => h1 ((lastKey_iff t).mp h))) (out_kept t (fun h => h1 ((lastKey_iff t).mp h)))]
    rw [stateAt_first m c t h0 h1]
    unfold firstAcc; (try dsimp only)
    have hrun := (runFirst c (grid0.coords t) (mq t) (hq t) (mk t) (hk t) (mv t) (hv t) (ml t) (hl t) (mb t) (hb t) (mo t) (ho t) accM (Memref.isWhole_whole _) ((firstKey_iff t).mpr h0) (fun h => h1 ((lastKey_iff t).mp h)) (iblk m c 0 t) (iblk m c 1 t) (iblk m c 2 t) (iblk m c 3 t) (iblk m c 4 t)).2
    have hcov := firstAcc_cover c (grid0.coords t) (mq t) (hq t) (mk t) (hk t) (mv t) (hv t) (ml t) (hl t) (mb t) (hb t) (mo t) (ho t) accM (Memref.isWhole_whole _) ((firstKey_iff t).mpr h0) (fun h => h1 ((lastKey_iff t).mp h)) (iblk m c 0 t) (iblk m c 1 t) (iblk m c 2 t) (iblk m c 3 t) (iblk m c 4 t)
    have hacc : (dats m 0 c).Φ t.castSucc ⊢ (iprop(∃ d, owns (c : Thread nD τ) accM fullShare d) : sProp 𝕄) := by
      rw [carried_castSucc m c t]
      by_cases hz : t.val = 0
      · rw [carried_zero m c _ _ hz]
      · rw [carried_pos m c _ _ hz]; iintro H; iexists _; iexact H
    iintro ⟨HS, Ho, ⟨%d0, H0⟩, ⟨%d1, H1⟩, ⟨%d2, H2⟩, ⟨%d3, H3⟩, ⟨%d4, H4⟩, ⟨%d5, H5⟩⟩
    ihave HS := hacc $$ HS
    iapply (hrun _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [HS]
    · unfold owns; iexists _; isplitr
      swap; · iexact HS
      ipureintro; exact View.read_writes_of_cover _ _ _ _ _ hcov
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 8 = 7
    · skip
      rw [show (dats m 0 c).leavesExact 0 t = owns (c : Thread nD τ) (mq t) fullShare ((dats m 0 c).after 0 t) from by
        unfold Dat.leavesExact; rw [in_live0 t], after_0]
      rw [show (dats m 0 c).leavesExact 1 t = owns (c : Thread nD τ) (mk t) fullShare ((dats m 0 c).after 1 t) from by
        unfold Dat.leavesExact; rw [in_live1 t], after_1]
      rw [show (dats m 0 c).leavesExact 2 t = owns (c : Thread nD τ) (mv t) fullShare ((dats m 0 c).after 2 t) from by
        unfold Dat.leavesExact; rw [in_live2 t], after_2]
      rw [show (dats m 0 c).leavesExact 3 t = owns (c : Thread nD τ) (ml t) fullShare ((dats m 0 c).after 3 t) from by
        unfold Dat.leavesExact; rw [in_live3 t], after_3]
      rw [show (dats m 0 c).leavesExact 4 t = owns (c : Thread nD τ) (mb t) fullShare ((dats m 0 c).after 4 t) from by
        unfold Dat.leavesExact; rw [in_live4 t], after_4]
      rw [show (dats m 0 c).leavesExact 5 t = owns (c : Thread nD τ) (mo t) fullShare ((dats m 0 c).after 5 t) from by
        unfold Dat.leavesExact; rw [out_live t ((lastKey_iff t).mpr h1)], after_5]
      rw [stateAt_last m c t h0 h1]
      unfold lastOut lastAcc; (try dsimp only)
      have hrun := (runLast c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2).2.2
      have hcovO := lastOut_cover c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2
      have hcovS := lastAcc_cover c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2
      rw [carried_castSucc m c t, carried_pos m c _ _ hz]
      iintro ⟨HS, Ho, ⟨%d0, H0⟩, ⟨%d1, H1⟩, ⟨%d2, H2⟩, ⟨%d3, H3⟩, ⟨%d4, H4⟩, ⟨%d5, H5⟩⟩
      iapply (hrun Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eo, H5⟩, ⟨%es, HS⟩⟩
      isplitl [HS]
      · unfold owns; iexists _; isplitr
        swap; · iexact HS
        ipureintro; exact View.read_writes_of_cover _ _ _ _ _ hcovS
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ hcovO
    · skip
      rw [show (dats m 0 c).leavesExact 0 t = owns (c : Thread nD τ) (mq t) fullShare ((dats m 0 c).after 0 t) from by
        unfold Dat.leavesExact; rw [in_live0 t], after_0]
      rw [show (dats m 0 c).leavesExact 1 t = owns (c : Thread nD τ) (mk t) fullShare ((dats m 0 c).after 1 t) from by
        unfold Dat.leavesExact; rw [in_live1 t], after_1]
      rw [show (dats m 0 c).leavesExact 2 t = owns (c : Thread nD τ) (mv t) fullShare ((dats m 0 c).after 2 t) from by
        unfold Dat.leavesExact; rw [in_live2 t], after_2]
      rw [show (dats m 0 c).leavesExact 3 t = owns (c : Thread nD τ) (ml t) fullShare ((dats m 0 c).after 3 t) from by
        unfold Dat.leavesExact; rw [in_live3 t], after_3]
      rw [show (dats m 0 c).leavesExact 4 t = owns (c : Thread nD τ) (mb t) fullShare ((dats m 0 c).after 4 t) from by
        unfold Dat.leavesExact; rw [in_live4 t], after_4]
      rw [Dat.leavesExact_idle (dats m 0 c) 5 t (out_idle t (fun h => h1 ((lastKey_iff t).mp h))) (out_kept t (fun h => h1 ((lastKey_iff t).mp h)))]
      rw [stateAt_mid m c t h0 h1]
      unfold midAcc; (try dsimp only)
      have hrun := (runMid c (grid0.coords t) (mq t) (hq t) (mk t) (hk t) (mv t) (hv t) (ml t) (hl t) (mb t) (hb t) (mo t) (ho t) accM (Memref.isWhole_whole _) (fun h => h0 ((firstKey_iff t).mp h)) (fun h => h1 ((lastKey_iff t).mp h)) (iblk m c 0 t) (iblk m c 1 t) (iblk m c 2 t) (iblk m c 3 t) (iblk m c 4 t) (stateAt m c (t.val - 1) (Nat.lt_of_le_of_lt (Nat.sub_le _ _) t.isLt)).2).2
      have hcov := midAcc_cover c (grid0.coords t) (mq t) (hq t) (mk t) (hk t) (mv t) (hv t) (ml t) (hl t) (mb t) (hb t) (mo t) (ho t) accM (Memref.isWhole_whole _) (fun h => h0 ((firstKey_iff t).mp h)) (fun h => h1 ((lastKey_iff t).mp h)) (iblk m c 0 t) (iblk m c 1 t) (iblk m c 2 t) (iblk m c 3 t) (iblk m c 4 t) (stateAt m c (t.val - 1) (Nat.lt_of_le_of_lt (Nat.sub_le _ _) t.isLt)).2
      rw [carried_castSucc m c t, carried_pos m c _ _ hz]
      iintro ⟨HS, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ hcov
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.BitsLaunch.lean ====
/-
  The launch of the contextualizer kernel's region, and what its run leaves. The kernel is handed the normalised
  right half twice, so two windows sit on one array: the launch gives the pipeline that array's buffer once, whole,
  and the share is split in two halves, one per window (both windows only read it). Every other array is held
  whole by its one window. The accumulator is the only scoped buffer the pipeline does not stage; it enters the
  invariant at anything and is forgotten at the end. After the run every array of the pipeline holds what the
  library computes from the proof data, and every other buffer what it held at the region's entry; in particular
  the three arguments hold what they held at launch.
-/
import proofs.«122940_j84679575208503_2_alg».proof.Proof.BitsData
import Idealize.ShloMosaic.Lib.StableHlo.Run

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' buffers and their shares -/

/-- The five distinct buffers behind the six windows' arrays, one by one. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v10) ↦{fullShare} W main_v10) ∗ (((c : Thread nD τ).loc main_v11) ↦{fullShare} W main_v11) ∗ (((c : Thread nD τ).loc main_v0) ↦{fullShare} W main_v0) ∗ (((c : Thread nD τ).loc main_arg2) ↦{fullShare} W main_arg2) ∗ (((c : Thread nD τ).loc main_v12) ↦{fullShare} W main_v12)) := by
  unfold Pipeline.arrBufs
  exact bigSep_eq_bigSepL_of_eq [main_v10, main_v11, main_v0, main_arg2, main_v12] (by decide) (by decide) _

/-- The proof data's arrays, each a whole buffer, window by window at its share. -/
theorem arrays_list (c : Dev nD) (G : (w : Fin cfg0.W) → Buf (Elt F) ((cfg0.win w).arr.view.loc (c : Thread nD τ))) :
    (dats m 0 c).arrays G = bigSep Finset.univ fun w => (((c : Thread nD τ).loc (Pipeline.arrRef spec0 w)) ↦{(dats m 0 c).share w} G w : sProp 𝕄) := by
  unfold Dat.arrays
  exact bigSep_congr fun w _ => by rw [(arr_whole0 w).set_eq_univ]

theorem share_q (c : Dev nD) : (dats m 0 c).share 0 = fullShare.left := by unfold Dat.share; exact if_neg (by decide)
theorem share_k (c : Dev nD) : (dats m 0 c).share 1 = fullShare.right := by unfold Dat.share; exact if_neg (by decide)
theorem share_v (c : Dev nD) : (dats m 0 c).share 2 = fullShare := by unfold Dat.share; exact if_neg (by decide)
theorem share_left (c : Dev nD) : (dats m 0 c).share 3 = fullShare := by unfold Dat.share; exact if_neg (by decide)
theorem share_bias (c : Dev nD) : (dats m 0 c).share 4 = fullShare := by unfold Dat.share; exact if_neg (by decide)
theorem share_out (c : Dev nD) : (dats m 0 c).share 5 = fullShare := by unfold Dat.share; exact if_pos (by decide)

/-- The buffers behind the arrays, whole at the entry contents, are the proof data's arrays at entry: the
    normalised right half's full share is its two halves, one for the query window and one for the key window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_list, bigSep_W0, share_q, share_k, share_v, share_left, share_bias, share_out]
  iintro ⟨Hx, Hv, Hl, Hb, Ho⟩
  ihave Hx2 := (pointsTo_share (PosShare.mem_left_op_right fullShare)).1 $$ Hx
  icases Hx2 with ⟨Hq, Hk⟩
  isplitl [Hq]; · iexact Hq
  isplitl [Hk]; · iexact Hk
  isplitl [Hv]; · iexact Hv
  isplitl [Hl]; · iexact Hl
  isplitl [Hb]; · iexact Hb
  iexact Ho

/-! ## The invariant at the two ends -/

/-- What the launch hands the region — the accumulator at anything — is the invariant before the first point. -/
theorem hin (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = iprop(∃ d, owns (c : Thread nD τ) accM fullShare d) from rfl, scopedRest_acc]
  iintro ⟨-, H⟩; iexact H

/-- After the last point the invariant gives the accumulator back, its contents forgotten. -/
theorem hout (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 128 := N_0; omega), scopedRest_acc]
  iintro H
  isplitr; · iempintro
  iexists _; iexact H

/-! ## The run -/

set_option backward.isDefEq.respectTransparency.types false in
/-- At the compiled mesh, for any values, from any memory with zero counters: every weakly fair execution of @main
    terminates, and every final state has every array of the pipeline at what the library computes from the proof
    data and every other unscoped buffer at what it held when the region was entered. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-! ## The arguments are left as they were -/

/-- No host line before the region writes an argument's buffer. -/
theorem V_arg0 (c : Dev nD) : V m c main_arg0 = m ((c : Thread nD τ).loc main_arg0) := by
  show StableHlo.after hostOps0 (fun b => m (c, b)) (Proc.devRef .tc main_arg0) = _
  after_results; try rfl
theorem V_arg1 (c : Dev nD) : V m c main_arg1 = m ((c : Thread nD τ).loc main_arg1) := by
  show StableHlo.after hostOps0 (fun b => m (c, b)) (Proc.devRef .tc main_arg1) = _
  after_results; try rfl
theorem V_arg2 (c : Dev nD) : V m c main_arg2 = m ((c : Thread nD τ).loc main_arg2) := by
  show StableHlo.after hostOps0 (fun b => m (c, b)) (Proc.devRef .tc main_arg2) = _
  after_results; try rfl

/-- The frame: the program runs to the end without a fault and its three arguments end as they began — x and V
    because no window stages them and nothing writes them, the bias because its window only reads it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (Pipeline.mem_restRefs_of main_arg0 rfl (by decide))).trans (V_arg0 m c),
     ((h c).2 main_arg1 (Pipeline.mem_restRefs_of main_arg1 rfl (by decide))).trans (V_arg1 m c),
     ((h c).1 4).trans (((dats m 0 c).arrAt_in 4 rfl _).trans ((A_eq m c 4).trans (V_arg2 m c)))⟩) (run_main m ρ)

end Cert.Kernel.Region

end
-- ==== Proof.IdealRegion.lean ====
/-
  The region of the contextualizer kernel as the launch finds it. Before the region the host lines split x
  into its two halves, divide the right half by max(‖row‖, ε) and narrow it and V; `V` names every buffer's
  contents after those lines. The body branches twice on the key-block coordinate k of the 16 × 8 grid:
  at k = 0 it clears the accumulator, at k = 7 it stores the gated product; both conditions are decided
  here in closed form over the 128 points (point t has k = t mod 8). The output window is written only
  at k = 7 and is idle elsewhere. Each input window's staging buffer holds its block at every point.
-/
import proofs.«122940_j84679575208503_2_alg».proof.Proof.Gen.KernelIdeal.Launch
import proofs.«122940_j84679575208503_2_alg».proof.Proof.Gen.KernelIdeal.Skeleton
import proofs.«122940_j84679575208503_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Every TensorCore buffer's contents once the host lines before the region have run. -/
abbrev V0 (c : Dev nD) : Valuation τ sig (Elt F) := StableHlo.after hostOps0 (fun b => m (c, b))
/-- The same, read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor

/-- @main is the host lines, then the region: it reaches the region holding the buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The two conditions of the body, over the grid -/

/-- The key-block coordinate is 0 (the accumulator is cleared): the body's first condition, its scalar chain spelt out. -/
abbrev firstKey (i : grid0.Coords) : Prop :=
  (Scalar.cmpi .ne (Scalar.extui (Scalar.cmpi .eq (BitVec.ofNat 32 (i 1).val) 0#32)) 0#32) = 1#1
/-- It holds at the points t with t mod 8 = 0. -/
theorem firstKey_iff : ∀ t : Fin cfg0.N, firstKey (grid0.coords t) ↔ t.val % 8 = 0 :=
  (by decide +kernel : ∀ t : Fin grid0.N, firstKey (grid0.coords t) ↔ t.val % 8 = 0)

/-- The key-block coordinate is 7 (the gated product is stored): the body's second condition. -/
abbrev lastKey (i : grid0.Coords) : Prop := k0_cond2 i = 1#1
/-- It holds at the points t with t mod 8 = 7. -/
theorem lastKey_iff : ∀ t : Fin cfg0.N, lastKey (grid0.coords t) ↔ t.val % 8 = 7 :=
  (by decide +kernel : ∀ t : Fin grid0.N, lastKey (grid0.coords t) ↔ t.val % 8 = 7)

/-! ## Where the output window is idle -/

/-- Away from k = 7 the body stores nothing into the output window: it is idle there, -/
theorem out_idle : ∀ t : Fin cfg0.N, ¬lastKey (grid0.coords t) → cfg0.idle 5 (grid0.coords t) = true := by decide +kernel
/-- and its block is not written back there. -/
theorem out_kept : ∀ t : Fin cfg0.N, ¬lastKey (grid0.coords t) → (cfg0.win 5).flush t = false := by decide +kernel
/-- At k = 7 it is live. -/
theorem out_live : ∀ t : Fin cfg0.N, lastKey (grid0.coords t) → cfg0.idle 5 (grid0.coords t) = false := by decide +kernel

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Inputs
variable {c : Dev nD} (dat : Dat τ (Elt F) Unit ℕ (UR sig nD τ) ℕ cfg0 c)

/-- The query rows' staging buffer holds their block at every point, fetched there or not, for any proof data
    whose array is the entry contents and whose body leaves the block in place. -/
theorem found_q (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The resident key rows likewise, -/
theorem found_k (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the block of V, -/
theorem found_v (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- the left half's rows, -/
theorem found_left (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- and the bias. -/
theorem found_bias (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end Inputs

/-! ## The staging memrefs at a point, and the accumulator -/

abbrev mq (t : Fin cfg0.N) : Memref sig .tc .vmem S4x256x512 .bf16 := win0_0.stage (cfg0.slots t 0)
abbrev hq (t : Fin cfg0.N) : (mq t).IsWhole := hstage0_0 ((cfg0.slots t 0).cast nbuf0_0)
abbrev mk (t : Fin cfg0.N) : Memref sig .tc .vmem S4x4096x512 .bf16 := win0_1.stage (cfg0.slots t 1)
abbrev hk (t : Fin cfg0.N) : (mk t).IsWhole := hstage0_1 ((cfg0.slots t 1).cast nbuf0_1)
abbrev mv (t : Fin cfg0.N) : Memref sig .tc .vmem S256x512 .bf16 := win0_2.stage (cfg0.slots t 2)
abbrev hv (t : Fin cfg0.N) : (mv t).IsWhole := hstage0_2 ((cfg0.slots t 2).cast nbuf0_2)
abbrev ml (t : Fin cfg0.N) : Memref sig .tc .vmem S4x256x512 .f32 := win0_3.stage (cfg0.slots t 3)
abbrev hl (t : Fin cfg0.N) : (ml t).IsWhole := hstage0_3 ((cfg0.slots t 3).cast nbuf0_3)
abbrev mb (t : Fin cfg0.N) : Memref sig .tc .vmem S1x1x512 .f32 := win0_4.stage (cfg0.slots t 4)
abbrev hb (t : Fin cfg0.N) : (mb t).IsWhole := hstage0_4 ((cfg0.slots t 4).cast nbuf0_4)
abbrev mo (t : Fin cfg0.N) : Memref sig .tc .vmem S4x256x512 .f32 := win0_5.stage (cfg0.slots t 5)
abbrev ho (t : Fin cfg0.N) : (mo t).IsWhole := hstage0_5 ((cfg0.slots t 5).cast nbuf0_5)
/-- The accumulator: a whole scoped buffer of the kernel's own, carried from point to point. -/
abbrev accM : Memref sig .tc .vmem S4x256x512 .f32 := Memref.whole cc0_scratch0
/-- Views through which the accumulator's and the output buffer's contents are stated. -/
abbrev accV : View sig .tc .vmem S4x256x512 .f32 := accM.view
abbrev outV : View sig .tc .vmem S4x256x512 .f32 := (Memref.whole cc0_stg5_0 : Memref sig .tc .vmem S4x256x512 .f32).view

/-- The core's scoped buffers that are no staging buffer are the accumulator alone, owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.KernelIdeal.Region

end
-- ==== Proof.IdealRunFirst.lean ====
/-
  The body of the contextualizer kernel at a point whose key-block coordinate is 0. There the body clears the
  accumulator — whatever it held — and then adds the first key block's contribution: on whole staging buffers,
  the five inputs at their contents and the idle output buffer at what it held, the body runs to its end with
  the inputs and the output buffer untouched and the accumulator holding the pieces its two stores wrote.
-/
import proofs.«122940_j84679575208503_2_alg».proof.Proof.IdealRegion

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at k = 0 (the last store first), with the run that
    leaves them: both conditions are decided by the point's hypotheses, the rest is loads and stores. -/
noncomputable def runFirst (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) :
    { LS : List (View.Piece (Elt F) S4x256x512 .f32) //
      ∀ (xi5 : Vec F S4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__contextualizer_kernel i arg2 harg2 arg3 harg3 arg4 harg4 arg5 harg5 arg6 harg6 arg7 harg7 arg8 harg8) K } := by
  refine ⟨?_, fun xi5 E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Region

end
-- ==== Proof.IdealRunMid.lean ====
/-
  The body of the contextualizer kernel at a point whose key-block coordinate is neither 0 nor 7: it adds the
  key block's contribution to the accumulator the point before left, and touches nothing else.
-/
import proofs.«122940_j84679575208503_2_alg».proof.Proof.IdealRunFirst

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the accumulator at 0 < k < 7, over the contents `xs` the point
    before left there, with the run that leaves them. -/
noncomputable def runMid (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) :
    { LS : List (View.Piece (Elt F) S4x256x512 .f32) //
      ∀ (xi5 : Vec F S4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__contextualizer_kernel i arg2 harg2 arg3 harg3 arg4 harg4 arg5 harg5 arg6 harg6 arg7 harg7 arg8 harg8) K } := by
  refine ⟨?_, fun xi5 E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Region

end
-- ==== Proof.IdealRunLast.lean ====
/-
  The body of the contextualizer kernel at a point whose key-block coordinate is 7: it adds the last key block's
  contribution to the accumulator, then stores into the output buffer the left half's rows times the logistic
  of the accumulator plus the bias.
-/
import proofs.«122940_j84679575208503_2_alg».proof.Proof.IdealRunMid

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer (held at anything before) and in the accumulator at
    k = 7, over the contents `xs` the point before left in the accumulator, with the run that leaves them. -/
noncomputable def runLast (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) :
    Σ' (LO : List (View.Piece (Elt F) S4x256x512 .f32)), { LS : List (View.Piece (Elt F) S4x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__contextualizer_kernel i arg2 harg2 arg3 harg3 arg4 harg4 arg5 harg5 arg6 harg6 arg7 harg7 arg8 harg8) K } := by
  refine ⟨?_, ?_, fun E K => ?run⟩
  case run =>
    simp only [cc0__contextualizer_kernel_eq_skeleton]; unfold cc0__contextualizer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Region

end
-- ==== Proof.IdealData.lean ====
/-
  What the contextualizer kernel's buffers hold after each grid point, and the body's obligation to the pipeline.
  Point t has query block t / 8 and key block k = t mod 8. After a point with k = 0 the accumulator holds what
  the first run leaves; after any other point what that point's run leaves over the accumulator of the point
  before; the output buffer is written at k = 7 only. The invariant carried from point to point is the
  accumulator at those contents (at anything before the first point). The normalised right half is handed to
  the kernel twice — as the query rows' window and as the resident key rows' window — so each of the two windows
  holds half of that array's share; the other inputs hold theirs whole.
-/
import proofs.«122940_j84679575208503_2_alg».proof.Proof.IdealRunLast
import Idealize.ShloMosaic.Lib.Ring

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At k = 0 the accumulator's two stores cover it. -/
theorem firstAcc_cover (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) (y : S4x256x512.Idx) :
    ∃ pc ∈ (runFirst c i arg2 harg2 arg3 harg3 arg4 harg4 arg5 harg5 arg6 harg6 arg7 harg7 arg8 harg8 hc0 hc1 x0 x1 x2 x3 x4).1, y ∈ pc.1.set :=
  View.cover_of_tiledL (runFirst c i arg2 harg2 arg3 harg3 arg4 harg4 arg5 harg5 arg6 harg6 arg7 harg7 arg8 harg8 hc0 hc1 x0 x1 x2 x3 x4).1 S4x256x512.size (by sl_kernel_rfl) y
/-- What the point leaves in the accumulator: its pieces read back. -/
def firstAcc (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) : Vec F S4x256x512 .f32 :=
  accV.read (Elt F) (accV.writes (Elt F) accV.junk (runFirst c i arg2 harg2 arg3 harg3 arg4 harg4 arg5 harg5 arg6 harg6 arg7 harg7 arg8 harg8 hc0 hc1 x0 x1 x2 x3 x4).1)

/-- At 0 < k < 7 the accumulator's one store covers it. -/
theorem midAcc_cover (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) (y : S4x256x512.Idx) :
    ∃ pc ∈ (runMid c i arg2 harg2 arg3 harg3 arg4 harg4 arg5 harg5 arg6 harg6 arg7 harg7 arg8 harg8 hc0 hc1 x0 x1 x2 x3 x4 xs).1, y ∈ pc.1.set :=
  View.cover_of_tiledL (runMid c i arg2 harg2 arg3 harg3 arg4 harg4 arg5 harg5 arg6 harg6 arg7 harg7 arg8 harg8 hc0 hc1 x0 x1 x2 x3 x4 xs).1 S4x256x512.size (by sl_kernel_rfl) y
def midAcc (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) : Vec F S4x256x512 .f32 :=
  accV.read (Elt F) (accV.writes (Elt F) accV.junk (runMid c i arg2 harg2 arg3 harg3 arg4 harg4 arg5 harg5 arg6 harg6 arg7 harg7 arg8 harg8 hc0 hc1 x0 x1 x2 x3 x4 xs).1)

/-- At k = 7 the output buffer's one store covers it, -/
theorem lastOut_cover (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) (y : S4x256x512.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S4x256x512.size (by sl_kernel_rfl) y
def lastOut (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) : Vec F S4x256x512 .f32 :=
  outV.read (Elt F) (outV.writes (Elt F) outV.junk (runLast c i arg2 harg2 arg3 harg3 arg4 harg4 arg5 harg5 arg6 harg6 arg7 harg7 arg8 harg8 hc0 hc1 x0 x1 x2 x3 x4 xs).1)
/-- and so does the accumulator's. -/
theorem lastAcc_cover (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) (y : S4x256x512.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S4x256x512.size (by sl_kernel_rfl) y
def lastAcc (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) : Vec F S4x256x512 .f32 :=
  accV.read (Elt F) (accV.writes (Elt F) accV.junk (runLast c i arg2 harg2 arg3 harg3 arg4 harg4 arg5 harg5 arg6 harg6 arg7 harg7 arg8 harg8 hc0 hc1 x0 x1 x2 x3 x4 xs).2.1)

/-- The output buffer where no point's store is read: a placeholder nothing consults (the window is idle there). -/
def idleOut : Vec F S4x256x512 .f32 := outV.read (Elt F) outV.junk

/-! ## Point by point -/

/-- What the output buffer (first) and the accumulator (second) hold after the body at position `n`: by k = n mod 8
    the case's contents, at the point's staging memrefs and input blocks, over the accumulator position `n - 1` left. -/
def stateAt (c : Dev nD) : (n : ℕ) → n < cfg0.N → Vec F S4x256x512 .f32 × Vec F S4x256x512 .f32
  | 0, hn => (idleOut, firstAcc c (grid0.coords ⟨0, hn⟩) (mq ⟨0, hn⟩) (hq ⟨0, hn⟩) (mk ⟨0, hn⟩) (hk ⟨0, hn⟩) (mv ⟨0, hn⟩) (hv ⟨0, hn⟩) (ml ⟨0, hn⟩) (hl ⟨0, hn⟩) (mb ⟨0, hn⟩) (hb ⟨0, hn⟩) (mo ⟨0, hn⟩) (ho ⟨0, hn⟩) accM (Memref.isWhole_whole _) ((firstKey_iff ⟨0, hn⟩).mpr (Nat.zero_mod _)) (fun h => absurd ((lastKey_iff ⟨0, hn⟩).mp h) (show ¬(0 % 8 = 7) from by decide)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      (idleOut, firstAcc c (grid0.coords ⟨n + 1, hn⟩) (mq ⟨n + 1, hn⟩) (hq ⟨n + 1, hn⟩) (mk ⟨n + 1, hn⟩) (hk ⟨n + 1, hn⟩) (mv ⟨n + 1, hn⟩) (hv ⟨n + 1, hn⟩) (ml ⟨n + 1, hn⟩) (hl ⟨n + 1, hn⟩) (mb ⟨n + 1, hn⟩) (hb ⟨n + 1, hn⟩) (mo ⟨n + 1, hn⟩) (ho ⟨n + 1, hn⟩) accM (Memref.isWhole_whole _) ((firstKey_iff ⟨n + 1, hn⟩).mpr h0) (fun h => by have := (lastKey_iff ⟨n + 1, hn⟩).mp h; (try dsimp only at this); omega) (iblk m c 0 ⟨n + 1, hn⟩) (iblk m c 1 ⟨n + 1, hn⟩) (iblk m c 2 ⟨n + 1, hn⟩) (iblk m c 3 ⟨n + 1, hn⟩) (iblk m c 4 ⟨n + 1, hn⟩))
    else if h1 : (n + 1) % 8 = 7 then
      (lastOut c (grid0.coords ⟨n + 1, hn⟩) (mq ⟨n + 1, hn⟩) (hq ⟨n + 1, hn⟩) (mk ⟨n + 1, hn⟩) (hk ⟨n + 1, hn⟩) (mv ⟨n + 1, hn⟩) (hv ⟨n + 1, hn⟩) (ml ⟨n + 1, hn⟩) (hl ⟨n + 1, hn⟩) (mb ⟨n + 1, hn⟩) (hb ⟨n + 1, hn⟩) (mo ⟨n + 1, hn⟩) (ho ⟨n + 1, hn⟩) accM (Memref.isWhole_whole _) (fun h => h0 ((firstKey_iff ⟨n + 1, hn⟩).mp h)) ((lastKey_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (stateAt c n (Nat.lt_of_succ_lt hn)).2,
       lastAcc c (grid0.coords ⟨n + 1, hn⟩) (mq ⟨n + 1, hn⟩) (hq ⟨n + 1, hn⟩) (mk ⟨n + 1, hn⟩) (hk ⟨n + 1, hn⟩) (mv ⟨n + 1, hn⟩) (hv ⟨n + 1, hn⟩) (ml ⟨n + 1, hn⟩) (hl ⟨n + 1, hn⟩) (mb ⟨n + 1, hn⟩) (hb ⟨n + 1, hn⟩) (mo ⟨n + 1, hn⟩) (ho ⟨n + 1, hn⟩) accM (Memref.isWhole_whole _) (fun h => h0 ((firstKey_iff ⟨n + 1, hn⟩).mp h)) ((lastKey_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (stateAt c n (Nat.lt_of_succ_lt hn)).2)
    else
      (idleOut, midAcc c (grid0.coords ⟨n + 1, hn⟩) (mq ⟨n + 1, hn⟩) (hq ⟨n + 1, hn⟩) (mk ⟨n + 1, hn⟩) (hk ⟨n + 1, hn⟩) (mv ⟨n + 1, hn⟩) (hv ⟨n + 1, hn⟩) (ml ⟨n + 1, hn⟩) (hl ⟨n + 1, hn⟩) (mb ⟨n + 1, hn⟩) (hb ⟨n + 1, hn⟩) (mo ⟨n + 1, hn⟩) (ho ⟨n + 1, hn⟩) accM (Memref.isWhole_whole _) (fun h => h0 ((firstKey_iff ⟨n + 1, hn⟩).mp h)) (fun h => h1 ((lastKey_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (stateAt c n (Nat.lt_of_succ_lt hn)).2)

/-- At a point with k = 0. -/
theorem stateAt_first (c : Dev nD) (t : Fin cfg0.N) (h0 : t.val % 8 = 0) (h1 : ¬t.val % 8 = 7) :
    stateAt m c t.val t.isLt = (idleOut, firstAcc c (grid0.coords t) (mq t) (hq t) (mk t) (hk t) (mv t) (hv t) (ml t) (hl t) (mb t) (hb t) (mo t) (ho t) accM (Memref.isWhole_whole _) ((firstKey_iff t).mpr h0) (fun h => h1 ((lastKey_iff t).mp h)) (iblk m c 0 t) (iblk m c 1 t) (iblk m c 2 t) (iblk m c 3 t) (iblk m c 4 t)) := by
  obtain ⟨n, hn⟩ := t
  cases n with
  | zero => exact rfl
  | succ n => exact (dif_pos h0).trans rfl

/-- At a point with 0 < k < 7, over what the point before left. -/
theorem stateAt_mid (c : Dev nD) (t : Fin cfg0.N) (h0 : ¬t.val % 8 = 0) (h1 : ¬t.val % 8 = 7) :
    stateAt m c t.val t.isLt = (idleOut, midAcc c (grid0.coords t) (mq t) (hq t) (mk t) (hk t) (mv t) (hv t) (ml t) (hl t) (mb t) (hb t) (mo t) (ho t) accM (Memref.isWhole_whole _) (fun h => h0 ((firstKey_iff t).mp h)) (fun h => h1 ((lastKey_iff t).mp h)) (iblk m c 0 t) (iblk m c 1 t) (iblk m c 2 t) (iblk m c 3 t) (iblk m c 4 t) (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point with k = 7, over what the point before left. -/
theorem stateAt_last (c : Dev nD) (t : Fin cfg0.N) (h0 : ¬t.val % 8 = 0) (h1 : t.val % 8 = 7) :
    stateAt m c t.val t.isLt = (lastOut c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2,
      lastAcc c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The invariant before position `n`: before the first point the accumulator at anything, afterwards at what the
    point before left in it. -/
def carried (c : Dev nD) : (n : ℕ) → n ≤ cfg0.N → sProp 𝕄
  | 0, _ => iprop(∃ d, owns (c : Thread nD τ) accM fullShare d)
  | n + 1, hn => owns (c : Thread nD τ) accM fullShare ((stateAt m c n hn).2)

theorem carried_zero (c : Dev nD) (n : ℕ) (h : n ≤ cfg0.N) (hz : n = 0) :
    carried m c n h = iprop(∃ d, owns (c : Thread nD τ) accM fullShare d) := by
  subst hz; rfl
theorem carried_succ (c : Dev nD) (n : ℕ) (hn : n < cfg0.N) :
    carried m c (n + 1) hn = owns (c : Thread nD τ) accM fullShare ((stateAt m c n hn).2) := rfl
theorem carried_pos (c : Dev nD) (n : ℕ) (h : n ≤ cfg0.N) (hz : n ≠ 0) :
    carried m c n h = owns (c : Thread nD τ) accM fullShare ((stateAt m c (n - 1) (by omega)).2) := by
  cases n with
  | zero => exact absurd rfl hz
  | succ n => rfl

/-! ## The pipeline's proof data -/

/-- The proof data on core `c`: the arrays as the region finds them; after the body each input's buffer at its
    block and the output's at `stateAt`; the carried accumulator; nothing owed; the normalised right half's share
    halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).1
  Φ t := carried m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (stateAt m c t.val t.isLt).1 := by dsimp only [dats]

theorem before_0 (c : Dev nD) (t : Fin cfg0.N) (d) : (dats m 0 c).before 0 t d = iblk m c 0 t :=
  found_q m (dats m 0 c) (A_eq m c 0) (after_0 m c) t d
theorem before_1 (c : Dev nD) (t : Fin cfg0.N) (d) : (dats m 0 c).before 1 t d = iblk m c 1 t :=
  found_k m (dats m 0 c) (A_eq m c 1) (after_1 m c) t d
theorem before_2 (c : Dev nD) (t : Fin cfg0.N) (d) : (dats m 0 c).before 2 t d = iblk m c 2 t :=
  found_v m (dats m 0 c) (A_eq m c 2) (after_2 m c) t d
theorem before_3 (c : Dev nD) (t : Fin cfg0.N) (d) : (dats m 0 c).before 3 t d = iblk m c 3 t :=
  found_left m (dats m 0 c) (A_eq m c 3) (after_3 m c) t d
theorem before_4 (c : Dev nD) (t : Fin cfg0.N) (d) : (dats m 0 c).before 4 t d = iblk m c 4 t :=
  found_bias m (dats m 0 c) (A_eq m c 4) (after_4 m c) t d

/-- The inputs are never idle. -/
theorem in_live0 : ∀ t : Fin cfg0.N, cfg0.idle 0 (grid0.coords t) = false := fun _ => rfl
theorem in_live1 : ∀ t : Fin cfg0.N, cfg0.idle 1 (grid0.coords t) = false := fun _ => rfl
theorem in_live2 : ∀ t : Fin cfg0.N, cfg0.idle 2 (grid0.coords t) = false := fun _ => rfl
theorem in_live3 : ∀ t : Fin cfg0.N, cfg0.idle 3 (grid0.coords t) = false := fun _ => rfl
theorem in_live4 : ∀ t : Fin cfg0.N, cfg0.idle 4 (grid0.coords t) = false := fun _ => rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mk t) fullShare ((dats m 0 c).before 1 t d))
    ∗ (∃ d, owns (c : Thread nD τ) (mv t) fullShare ((dats m 0 c).before 2 t d))
    ∗ (∃ d, owns (c : Thread nD τ) (ml t) fullShare ((dats m 0 c).before 3 t d))
    ∗ (∃ d, owns (c : Thread nD τ) (mb t) fullShare ((dats m 0 c).before 4 t d))
    ∗ (∃ d, owns (c : Thread nD τ) (mo t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; k = t mod 8 says which run applies; the invariant
    hands the run the accumulator (at anything where k = 0, else at what the point before left) and takes it back
    at this point's contents; the output buffer comes back untouched unless k = 7. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = carried m c (t.val + 1) t.isLt from rfl, carried_succ]
  have hN : t.val < 128 := lt_of_lt_of_eq t.isLt (show cfg0.N = 128 from N_0)
  by_cases h0 : t.val % 8 = 0
  · skip
    have h1 : ¬t.val % 8 = 7 := by omega
    rw [show (dats m 0 c).leavesExact 0 t = owns (c : Thread nD τ) (mq t) fullShare ((dats m 0 c).after 0 t) from by
      unfold Dat.leavesExact; rw [in_live0 t], after_0]
    rw [show (dats m 0 c).leavesExact 1 t = owns (c : Thread nD τ) (mk t) fullShare ((dats m 0 c).after 1 t) from by
      unfold Dat.leavesExact; rw [in_live1 t], after_1]
    rw [show (dats m 0 c).leavesExact 2 t = owns (c : Thread nD τ) (mv t) fullShare ((dats m 0 c).after 2 t) from by
      unfold Dat.leavesExact; rw [in_live2 t], after_2]
    rw [show (dats m 0 c).leavesExact 3 t = owns (c : Thread nD τ) (ml t) fullShare ((dats m 0 c).after 3 t) from by
      unfold Dat.leavesExact; rw [in_live3 t], after_3]
    rw [show (dats m 0 c).leavesExact 4 t = owns (c : Thread nD τ) (mb t) fullShare ((dats m 0 c).after 4 t) from by
      unfold Dat.leavesExact; rw [in_live4 t], after_4]
    rw [Dat.leavesExact_idle (dats m 0 c) 5 t (out_idle t (fun h => h1 ((lastKey_iff t).mp h))) (out_kept t (fun h => h1 ((lastKey_iff t).mp h)))]
    rw [stateAt_first m c t h0 h1]
    unfold firstAcc; (try dsimp only)
    have hrun := (runFirst c (grid0.coords t) (mq t) (hq t) (mk t) (hk t) (mv t) (hv t) (ml t) (hl t) (mb t) (hb t) (mo t) (ho t) accM (Memref.isWhole_whole _) ((firstKey_iff t).mpr h0) (fun h => h1 ((lastKey_iff t).mp h)) (iblk m c 0 t) (iblk m c 1 t) (iblk m c 2 t) (iblk m c 3 t) (iblk m c 4 t)).2
    have hcov := firstAcc_cover c (grid0.coords t) (mq t) (hq t) (mk t) (hk t) (mv t) (hv t) (ml t) (hl t) (mb t) (hb t) (mo t) (ho t) accM (Memref.isWhole_whole _) ((firstKey_iff t).mpr h0) (fun h => h1 ((lastKey_iff t).mp h)) (iblk m c 0 t) (iblk m c 1 t) (iblk m c 2 t) (iblk m c 3 t) (iblk m c 4 t)
    have hacc : (dats m 0 c).Φ t.castSucc ⊢ (iprop(∃ d, owns (c : Thread nD τ) accM fullShare d) : sProp 𝕄) := by
      rw [carried_castSucc m c t]
      by_cases hz : t.val = 0
      · rw [carried_zero m c _ _ hz]
      · rw [carried_pos m c _ _ hz]; iintro H; iexists _; iexact H
    iintro ⟨HS, Ho, ⟨%d0, H0⟩, ⟨%d1, H1⟩, ⟨%d2, H2⟩, ⟨%d3, H3⟩, ⟨%d4, H4⟩, ⟨%d5, H5⟩⟩
    ihave HS := hacc $$ HS
    iapply (hrun _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [HS]
    · unfold owns; iexists _; isplitr
      swap; · iexact HS
      ipureintro; exact View.read_writes_of_cover _ _ _ _ _ hcov
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 8 = 7
    · skip
      rw [show (dats m 0 c).leavesExact 0 t = owns (c : Thread nD τ) (mq t) fullShare ((dats m 0 c).after 0 t) from by
        unfold Dat.leavesExact; rw [in_live0 t], after_0]
      rw [show (dats m 0 c).leavesExact 1 t = owns (c : Thread nD τ) (mk t) fullShare ((dats m 0 c).after 1 t) from by
        unfold Dat.leavesExact; rw [in_live1 t], after_1]
      rw [show (dats m 0 c).leavesExact 2 t = owns (c : Thread nD τ) (mv t) fullShare ((dats m 0 c).after 2 t) from by
        unfold Dat.leavesExact; rw [in_live2 t], after_2]
      rw [show (dats m 0 c).leavesExact 3 t = owns (c : Thread nD τ) (ml t) fullShare ((dats m 0 c).after 3 t) from by
        unfold Dat.leavesExact; rw [in_live3 t], after_3]
      rw [show (dats m 0 c).leavesExact 4 t = owns (c : Thread nD τ) (mb t) fullShare ((dats m 0 c).after 4 t) from by
        unfold Dat.leavesExact; rw [in_live4 t], after_4]
      rw [show (dats m 0 c).leavesExact 5 t = owns (c : Thread nD τ) (mo t) fullShare ((dats m 0 c).after 5 t) from by
        unfold Dat.leavesExact; rw [out_live t ((lastKey_iff t).mpr h1)], after_5]
      rw [stateAt_last m c t h0 h1]
      unfold lastOut lastAcc; (try dsimp only)
      have hrun := (runLast c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2).2.2
      have hcovO := lastOut_cover c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2
      have hcovS := lastAcc_cover c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2
      rw [carried_castSucc m c t, carried_pos m c _ _ hz]
      iintro ⟨HS, Ho, ⟨%d0, H0⟩, ⟨%d1, H1⟩, ⟨%d2, H2⟩, ⟨%d3, H3⟩, ⟨%d4, H4⟩, ⟨%d5, H5⟩⟩
      iapply (hrun Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eo, H5⟩, ⟨%es, HS⟩⟩
      isplitl [HS]
      · unfold owns; iexists _; isplitr
        swap; · iexact HS
        ipureintro; exact View.read_writes_of_cover _ _ _ _ _ hcovS
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ hcovO
    · skip
      rw [show (dats m 0 c).leavesExact 0 t = owns (c : Thread nD τ) (mq t) fullShare ((dats m 0 c).after 0 t) from by
        unfold Dat.leavesExact; rw [in_live0 t], after_0]
      rw [show (dats m 0 c).leavesExact 1 t = owns (c : Thread nD τ) (mk t) fullShare ((dats m 0 c).after 1 t) from by
        unfold Dat.leavesExact; rw [in_live1 t], after_1]
      rw [show (dats m 0 c).leavesExact 2 t = owns (c : Thread nD τ) (mv t) fullShare ((dats m 0 c).after 2 t) from by
        unfold Dat.leavesExact; rw [in_live2 t], after_2]
      rw [show (dats m 0 c).leavesExact 3 t = owns (c : Thread nD τ) (ml t) fullShare ((dats m 0 c).after 3 t) from by
        unfold Dat.leavesExact; rw [in_live3 t], after_3]
      rw [show (dats m 0 c).leavesExact 4 t = owns (c : Thread nD τ) (mb t) fullShare ((dats m 0 c).after 4 t) from by
        unfold Dat.leavesExact; rw [in_live4 t], after_4]
      rw [Dat.leavesExact_idle (dats m 0 c) 5 t (out_idle t (fun h => h1 ((lastKey_iff t).mp h))) (out_kept t (fun h => h1 ((lastKey_iff t).mp h)))]
      rw [stateAt_mid m c t h0 h1]
      unfold midAcc; (try dsimp only)
      have hrun := (runMid c (grid0.coords t) (mq t) (hq t) (mk t) (hk t) (mv t) (hv t) (ml t) (hl t) (mb t) (hb t) (mo t) (ho t) accM (Memref.isWhole_whole _) (fun h => h0 ((firstKey_iff t).mp h)) (fun h => h1 ((lastKey_iff t).mp h)) (iblk m c 0 t) (iblk m c 1 t) (iblk m c 2 t) (iblk m c 3 t) (iblk m c 4 t) (stateAt m c (t.val - 1) (Nat.lt_of_le_of_lt (Nat.sub_le _ _) t.isLt)).2).2
      have hcov := midAcc_cover c (grid0.coords t) (mq t) (hq t) (mk t) (hk t) (mv t) (hv t) (ml t) (hl t) (mb t) (hb t) (mo t) (ho t) accM (Memref.isWhole_whole _) (fun h => h0 ((firstKey_iff t).mp h)) (fun h => h1 ((lastKey_iff t).mp h)) (iblk m c 0 t) (iblk m c 1 t) (iblk m c 2 t) (iblk m c 3 t) (iblk m c 4 t) (stateAt m c (t.val - 1) (Nat.lt_of_le_of_lt (Nat.sub_le _ _) t.isLt)).2
      rw [carried_castSucc m c t, carried_pos m c _ _ hz]
      iintro ⟨HS, Ho, ⟨%d0, H0⟩, ⟨%d1, H1⟩, ⟨%d2, H2⟩, ⟨%d3, H3⟩, ⟨%d4, H4⟩, ⟨%d5, H5⟩⟩
      iapply (hrun _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ hcov
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.IdealLaunch.lean ====
/-
  The launch of the contextualizer kernel's region, and what its run leaves. The kernel is handed the normalised
  right half twice, so two windows sit on one array: the launch gives the pipeline that array's buffer once, whole,
  and the share is split in two halves, one per window (both windows only read it). Every other array is held
  whole by its one window. The accumulator is the only scoped buffer the pipeline does not stage; it enters the
  invariant at anything and is forgotten at the end. After the run every array of the pipeline holds what the
  library computes from the proof data, and every other buffer what it held at the region's entry; in particular
  the three arguments hold what they held at launch.
-/
import proofs.«122940_j84679575208503_2_alg».proof.Proof.IdealData
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' buffers and their shares -/

/-- The five distinct buffers behind the six windows' arrays, one by one. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v10) ↦{fullShare} W main_v10) ∗ (((c : Thread nD τ).loc main_v11) ↦{fullShare} W main_v11) ∗ (((c : Thread nD τ).loc main_v0) ↦{fullShare} W main_v0) ∗ (((c : Thread nD τ).loc main_arg2) ↦{fullShare} W main_arg2) ∗ (((c : Thread nD τ).loc main_v12) ↦{fullShare} W main_v12)) := by
  unfold Pipeline.arrBufs
  exact bigSep_eq_bigSepL_of_eq [main_v10, main_v11, main_v0, main_arg2, main_v12] (by decide) (by decide) _

/-- The proof data's arrays, each a whole buffer, window by window at its share. -/
theorem arrays_list (c : Dev nD) (G : (w : Fin cfg0.W) → Buf (Elt F) ((cfg0.win w).arr.view.loc (c : Thread nD τ))) :
    (dats m 0 c).arrays G = bigSep Finset.univ fun w => (((c : Thread nD τ).loc (Pipeline.arrRef spec0 w)) ↦{(dats m 0 c).share w} G w : sProp 𝕄) := by
  unfold Dat.arrays
  exact bigSep_congr fun w _ => by rw [(arr_whole0 w).set_eq_univ]

theorem share_q (c : Dev nD) : (dats m 0 c).share 0 = fullShare.left := by unfold Dat.share; exact if_neg (by decide)
theorem share_k (c : Dev nD) : (dats m 0 c).share 1 = fullShare.right := by unfold Dat.share; exact if_neg (by decide)
theorem share_v (c : Dev nD) : (dats m 0 c).share 2 = fullShare := by unfold Dat.share; exact if_neg (by decide)
theorem share_left (c : Dev nD) : (dats m 0 c).share 3 = fullShare := by unfold Dat.share; exact if_neg (by decide)
theorem share_bias (c : Dev nD) : (dats m 0 c).share 4 = fullShare := by unfold Dat.share; exact if_neg (by decide)
theorem share_out (c : Dev nD) : (dats m 0 c).share 5 = fullShare := by unfold Dat.share; exact if_pos (by decide)

/-- The buffers behind the arrays, whole at the entry contents, are the proof data's arrays at entry: the
    normalised right half's full share is its two halves, one for the query window and one for the key window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_list, bigSep_W0, share_q, share_k, share_v, share_left, share_bias, share_out]
  iintro ⟨Hx, Hv, Hl, Hb, Ho⟩
  ihave Hx2 := (pointsTo_share (PosShare.mem_left_op_right fullShare)).1 $$ Hx
  icases Hx2 with ⟨Hq, Hk⟩
  isplitl [Hq]; · iexact Hq
  isplitl [Hk]; · iexact Hk
  isplitl [Hv]; · iexact Hv
  isplitl [Hl]; · iexact Hl
  isplitl [Hb]; · iexact Hb
  iexact Ho

/-! ## The invariant at the two ends -/

/-- What the launch hands the region — the accumulator at anything — is the invariant before the first point. -/
theorem hin (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = iprop(∃ d, owns (c : Thread nD τ) accM fullShare d) from rfl, scopedRest_acc]
  iintro ⟨-, H⟩; iexact H

/-- After the last point the invariant gives the accumulator back, its contents forgotten. -/
theorem hout (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 128 := N_0; omega), scopedRest_acc]
  iintro H
  isplitr; · iempintro
  iexists _; iexact H

/-! ## The run -/

set_option backward.isDefEq.respectTransparency.types false in
/-- At the compiled mesh, for any values, from any memory with zero counters: every weakly fair execution of @main
    terminates, and every final state has every array of the pipeline at what the library computes from the proof
    data and every other unscoped buffer at what it held when the region was entered. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-! ## The arguments are left as they were -/

/-- No host line before the region writes an argument's buffer. -/
theorem V_arg0 (c : Dev nD) : V m c main_arg0 = m ((c : Thread nD τ).loc main_arg0) := by
  show StableHlo.after hostOps0 (fun b => m (c, b)) (Proc.devRef .tc main_arg0) = _
  after_results; try rfl
theorem V_arg1 (c : Dev nD) : V m c main_arg1 = m ((c : Thread nD τ).loc main_arg1) := by
  show StableHlo.after hostOps0 (fun b => m (c, b)) (Proc.devRef .tc main_arg1) = _
  after_results; try rfl
theorem V_arg2 (c : Dev nD) : V m c main_arg2 = m ((c : Thread nD τ).loc main_arg2) := by
  show StableHlo.after hostOps0 (fun b => m (c, b)) (Proc.devRef .tc main_arg2) = _
  after_results; try rfl

/-- The frame: the program runs to the end without a fault and its three arguments end as they began — x and V
    because no window stages them and nothing writes them, the bias because its window only reads it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (Pipeline.mem_restRefs_of main_arg0 rfl (by decide))).trans (V_arg0 m c),
     ((h c).2 main_arg1 (Pipeline.mem_restRefs_of main_arg1 rfl (by decide))).trans (V_arg1 m c),
     ((h c).1 4).trans (((dats m 0 c).arrAt_in 4 rfl _).trans ((A_eq m c 4).trans (V_arg2 m c)))⟩) (run_main m ρ)

end Cert.KernelIdeal.Region

end
-- ==== Proof.IdealPieces.lean ====
/-
  What each case of the contextualizer kernel's body leaves, as the body's own arithmetic of the point's blocks.
  Every store of the body covers its whole buffer, so what a buffer holds afterwards is the last store's value:
  at k = 0 the accumulator holds the step applied to the cleared accumulator; at 0 < k ≤ 7 the step applied to
  what the point before left; and at k = 7 the output buffer holds the gate of that accumulator, the bias and the
  left half's rows. The step reads the point's 512 key rows out of the resident block, from row 512·k.
-/
import proofs.«122940_j84679575208503_2_alg».proof.Proof.IdealLaunch
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The key rows a point reads: 512 consecutive rows of the resident block, from the row the point's offsets name. -/
abbrev keyRows (i : grid0.Coords) (x1 : Vec F S4x4096x512 .bf16) : Vec F S4x512x512 .bf16 :=
  View.ld x1 (Rect.unit (s := S4x4096x512) (k0_off1 i) S4x512x512.size (k0_off1_inb i))

set_option maxHeartbeats 1000000 in
/-- At k = 0: the step over the cleared accumulator. -/
theorem firstAcc_eq (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) :
    firstAcc (F := F) c i arg2 harg2 arg3 harg3 arg4 harg4 arg5 harg5 arg6 harg6 arg7 harg7 arg8 harg8 hc0 hc1 x0 x1 x2 x3 x4 = k0_pay2 x0 (keyRows i x1) x2 (k0_pay1 (F := F)) := by
  unfold firstAcc
  rw [View.read_writes_eq_canon _ _ _ (firstAcc_cover c i arg2 harg2 arg3 harg3 arg4 harg4 arg5 harg5 arg6 harg6 arg7 harg7 arg8 harg8 hc0 hc1 x0 x1 x2 x3 x4)]
  unfold runFirst; dsimp only; sl_unfold_run_names
  rw [View.canon_cons_unit_zero hz3]
  simp only [View.readAt_eq_ld, harg2.read_unread, harg3.read_unread, harg4.read_unread, harg5.read_unread, harg6.read_unread,
    harg8.read_unread, View.ld_unit_zero (S := S4x256x512) hz3, View.ld_unit_zero (S := S256x512) hz2,
    View.ld_unit_zero (S := S1x1x512) hz3, View.readCov_unit_zero (S := S4x256x512) _ hz3]
  try rfl

set_option maxHeartbeats 1000000 in
/-- At 0 < k < 7: the step over what the point before left. -/
theorem midAcc_eq (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : ¬lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) :
    midAcc (F := F) c i arg2 harg2 arg3 harg3 arg4 harg4 arg5 harg5 arg6 harg6 arg7 harg7 arg8 harg8 hc0 hc1 x0 x1 x2 x3 x4 xs = k0_pay2 x0 (keyRows i x1) x2 xs := by
  unfold midAcc
  rw [View.read_writes_eq_canon _ _ _ (midAcc_cover c i arg2 harg2 arg3 harg3 arg4 harg4 arg5 harg5 arg6 harg6 arg7 harg7 arg8 harg8 hc0 hc1 x0 x1 x2 x3 x4 xs)]
  unfold runMid; dsimp only; sl_unfold_run_names
  rw [View.canon_cons_unit_zero hz3]
  simp only [View.readAt_eq_ld, harg2.read_unread, harg3.read_unread, harg4.read_unread, harg5.read_unread, harg6.read_unread,
    harg8.read_unread, View.ld_unit_zero (S := S4x256x512) hz3, View.ld_unit_zero (S := S256x512) hz2,
    View.ld_unit_zero (S := S1x1x512) hz3, View.readCov_unit_zero (S := S4x256x512) _ hz3]
  try rfl

set_option maxHeartbeats 1000000 in
/-- At k = 7 the accumulator takes the same step, -/
theorem lastAcc_eq (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) :
    lastAcc (F := F) c i arg2 harg2 arg3 harg3 arg4 harg4 arg5 harg5 arg6 harg6 arg7 harg7 arg8 harg8 hc0 hc1 x0 x1 x2 x3 x4 xs = k0_pay2 x0 (keyRows i x1) x2 xs := by
  unfold lastAcc
  rw [View.read_writes_eq_canon _ _ _ (lastAcc_cover c i arg2 harg2 arg3 harg3 arg4 harg4 arg5 harg5 arg6 harg6 arg7 harg7 arg8 harg8 hc0 hc1 x0 x1 x2 x3 x4 xs)]
  unfold runLast; dsimp only; sl_unfold_run_names
  rw [View.canon_cons_unit_zero hz3]
  simp only [View.readAt_eq_ld, harg2.read_unread, harg3.read_unread, harg4.read_unread, harg5.read_unread, harg6.read_unread,
    harg8.read_unread, View.ld_unit_zero (S := S4x256x512) hz3, View.ld_unit_zero (S := S256x512) hz2,
    View.ld_unit_zero (S := S1x1x512) hz3, View.readCov_unit_zero (S := S4x256x512) _ hz3]
  try rfl

set_option maxHeartbeats 1000000 in
/-- and the output buffer holds the gate of the stepped accumulator, the bias and the left half's rows. -/
theorem lastOut_eq (c : Dev nD) (i : grid0.Coords) (arg2 : Memref sig .tc .vmem S4x256x512 .bf16) (harg2 : arg2.IsWhole) (arg3 : Memref sig .tc .vmem S4x4096x512 .bf16) (harg3 : arg3.IsWhole) (arg4 : Memref sig .tc .vmem S256x512 .bf16) (harg4 : arg4.IsWhole) (arg5 : Memref sig .tc .vmem S4x256x512 .f32) (harg5 : arg5.IsWhole) (arg6 : Memref sig .tc .vmem S1x1x512 .f32) (harg6 : arg6.IsWhole) (arg7 : Memref sig .tc .vmem S4x256x512 .f32) (harg7 : arg7.IsWhole) (arg8 : Memref sig .tc .vmem S4x256x512 .f32) (harg8 : arg8.IsWhole) (hc0 : ¬firstKey i) (hc1 : lastKey i)
    (x0 : Vec F S4x256x512 .bf16) (x1 : Vec F S4x4096x512 .bf16) (x2 : Vec F S256x512 .bf16) (x3 : Vec F S4x256x512 .f32) (x4 : Vec F S1x1x512 .f32) (xs : Vec F S4x256x512 .f32) :
    lastOut (F := F) c i arg2 harg2 arg3 harg3 arg4 harg4 arg5 harg5 arg6 harg6 arg7 harg7 arg8 harg8 hc0 hc1 x0 x1 x2 x3 x4 xs = k0_pay3 (k0_pay2 x0 (keyRows i x1) x2 xs) x4 x3 := by
  unfold lastOut
  rw [View.read_writes_eq_canon _ _ _ (lastOut_cover c i arg2 harg2 arg3 harg3 arg4 harg4 arg5 harg5 arg6 harg6 arg7 harg7 arg8 harg8 hc0 hc1 x0 x1 x2 x3 x4 xs)]
  unfold runLast; dsimp only; sl_unfold_run_names
  rw [View.canon_cons_unit_zero hz3]
  simp only [View.readAt_eq_ld, harg2.read_unread, harg3.read_unread, harg4.read_unread, harg5.read_unread, harg6.read_unread,
    harg8.read_unread, View.ld_unit_zero (S := S4x256x512) hz3, View.ld_unit_zero (S := S256x512) hz2,
    View.ld_unit_zero (S := S1x1x512) hz3, View.readCov_unit_zero (S := S4x256x512) _ hz3]
  try rfl

end Cert.KernelIdeal.Region

end
-- ==== Proof.IdealBlocks.lean ====
/-
  The blocks the contextualizer kernel reads at a grid point, as entries of the arrays the region was handed.
  Point t has query block t / 8 and key block t mod 8. Its query rows and its rows of the left half are rows
  256·(t / 8) + r of their arrays; the key rows it cuts out of the resident block are rows 512·(t mod 8) + kk of
  the same normalised array; its block of V is rows 256·(t / 8) + r and columns 512·(t mod 8) + kk; the bias is
  read whole. All of it follows from the windows' index maps and the slice's offsets, decided once over the grid.
-/
import proofs.«122940_j84679575208503_2_alg».proof.Proof.IdealPieces
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The index maps and the slice offsets at every point, in closed form. -/
theorem idx_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val / 8 ∧ win0_2.index t (1 : Fin 2) = t.val % 8
    ∧ win0_3.index t (0 : Fin 3) = 0 ∧ win0_3.index t (1 : Fin 3) = t.val / 8 ∧ win0_3.index t (2 : Fin 3) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = t.val / 8 ∧ win0_5.index t (2 : Fin 3) = 0
    ∧ k0_off1 (grid0.coords t) (0 : Fin 3) = 0 ∧ k0_off1 (grid0.coords t) (1 : Fin 3) = 512 * (t.val % 8)
    ∧ k0_off1 (grid0.coords t) (2 : Fin 3) = 0 :=
  (by decide +kernel : ∀ t : Fin grid0.N, _)

theorem point_lt (t : Fin cfg0.N) : t.val < 128 := lt_of_lt_of_eq t.isLt (show cfg0.N = 128 from N_0)

/-- Row r of point t's query block, as a row of the whole array. -/
def rowAt (t : Fin cfg0.N) (r : Fin 256) : Fin 4096 := ⟨256 * (t.val / 8) + r.val, by have := point_lt t; have := r.isLt; omega⟩
/-- Row kk of point t's key block, as a row of the whole array. -/
def keyRowAt (t : Fin cfg0.N) (kk : Fin 512) : Fin 4096 := ⟨512 * (t.val % 8) + kk.val, by have := kk.isLt; omega⟩

/-- The query rows. -/
theorem read_q (c : Dev nD) (t : Fin cfg0.N) (b : Fin 4) (r : Fin 256) (e : Fin 512) :
    iblk m c 0 t (ix3 b r e) = V m c main_v10 (ix3 b (rowAt t r) e) := by
  obtain ⟨e0, e1, e2, -⟩ := idx_facts t
  show V m c main_v10 (((cfg0.win 0).blk t).view.emb (ix3 b r e)) = _
  refine congrArg (V m c main_v10) (funext fun a => Fin.ext ?_)
  match a with
  | ⟨0, _⟩ => show win0_0.index t (0 : Fin 3) * 4 + 1 * b.val = b.val; omega
  | ⟨1, _⟩ => show win0_0.index t (1 : Fin 3) * 256 + 1 * r.val = 256 * (t.val / 8) + r.val; omega
  | ⟨2, _⟩ => show win0_0.index t (2 : Fin 3) * 512 + 1 * e.val = e.val; omega

/-- The key rows, cut out of the resident block. -/
theorem read_k (c : Dev nD) (t : Fin cfg0.N) (b : Fin 4) (kk : Fin 512) (e : Fin 512) :
    keyRows (grid0.coords t) (iblk m c 1 t) (ix3 b kk e) = V m c main_v10 (ix3 b (keyRowAt t kk) e) := by
  obtain ⟨-, -, -, e0, e1, e2, -, -, -, -, -, -, -, -, -, -, -, o0, o1, o2⟩ := idx_facts t
  show V m c main_v10 (((cfg0.win 1).blk t).view.emb
    ((Rect.unit (s := S4x4096x512) (k0_off1 (grid0.coords t)) S4x512x512.size (k0_off1_inb (grid0.coords t))).idx (ix3 b kk e))) = _
  refine congrArg (V m c main_v10) (funext fun a => Fin.ext ?_)
  match a with
  | ⟨0, _⟩ => show win0_1.index t (0 : Fin 3) * 4 + 1 * (k0_off1 (grid0.coords t) (0 : Fin 3) + 1 * b.val) = b.val; omega
  | ⟨1, _⟩ => show win0_1.index t (1 : Fin 3) * 4096 + 1 * (k0_off1 (grid0.coords t) (1 : Fin 3) + 1 * kk.val) = 512 * (t.val % 8) + kk.val; omega
  | ⟨2, _⟩ => show win0_1.index t (2 : Fin 3) * 512 + 1 * (k0_off1 (grid0.coords t) (2 : Fin 3) + 1 * e.val) = e.val; omega

/-- The block of V. -/
theorem read_v (c : Dev nD) (t : Fin cfg0.N) (r : Fin 256) (kk : Fin 512) :
    iblk m c 2 t (ix2 r kk) = V m c main_v11 (ix2 (rowAt t r) (keyRowAt t kk)) := by
  obtain ⟨-, -, -, -, -, -, e0, e1, -⟩ := idx_facts t
  show V m c main_v11 (((cfg0.win 2).blk t).view.emb (ix2 r kk)) = _
  refine congrArg (V m c main_v11) (funext fun a => Fin.ext ?_)
  match a with
  | ⟨0, _⟩ => show win0_2.index t (0 : Fin 2) * 256 + 1 * r.val = 256 * (t.val / 8) + r.val; omega
  | ⟨1, _⟩ => show win0_2.index t (1 : Fin 2) * 512 + 1 * kk.val = 512 * (t.val % 8) + kk.val; omega

/-- The left half's rows. -/
theorem read_left (c : Dev nD) (t : Fin cfg0.N) (b : Fin 4) (r : Fin 256) (d : Fin 512) :
    iblk m c 3 t (ix3 b r d) = V m c main_v0 (ix3 b (rowAt t r) d) := by
  obtain ⟨-, -, -, -, -, -, -, -, e0, e1, e2, -⟩ := idx_facts t
  show V m c main_v0 (((cfg0.win 3).blk t).view.emb (ix3 b r d)) = _
  refine congrArg (V m c main_v0) (funext fun a => Fin.ext ?_)
  match a with
  | ⟨0, _⟩ => show win0_3.index t (0 : Fin 3) * 4 + 1 * b.val = b.val; omega
  | ⟨1, _⟩ => show win0_3.index t (1 : Fin 3) * 256 + 1 * r.val = 256 * (t.val / 8) + r.val; omega
  | ⟨2, _⟩ => show win0_3.index t (2 : Fin 3) * 512 + 1 * d.val = d.val; omega

/-- The bias. -/
theorem read_bias (c : Dev nD) (t : Fin cfg0.N) (d : Fin 512) :
    iblk m c 4 t (ix3 (0 : Fin 1) (0 : Fin 1) d) = V m c main_arg2 (ix3 (0 : Fin 1) (0 : Fin 1) d) := by
  obtain ⟨-, -, -, -, -, -, -, -, -, -, -, e0, e1, e2, -⟩ := idx_facts t
  show V m c main_arg2 (((cfg0.win 4).blk t).view.emb (ix3 (0 : Fin 1) (0 : Fin 1) d)) = _
  refine congrArg (V m c main_arg2) (funext fun a => Fin.ext ?_)
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 512 + 1 * d.val = d.val; omega

end Cert.KernelIdeal.Region

end
-- ==== Proof.LibBatchLayouts.lean ====
/-
  Broadcasts that spread a small array over LEADING or over BOTH TRAILING axes of a rank-3 result, read at an index
  written by coordinates, for any extents: a `[1, b, c]` slab repeated along the first axis, and an `[a, 1, 1]`
  column of scalars spread over the last two axes. Both are instances of the library's general reading of a
  broadcast (the operand at the result's coordinates, `0` on the operand's unit axes).
-/
import Idealize.ShloMosaic.Lib.Pipeline.Value
import Idealize.ShloMosaic.Lib.ValueIdx

noncomputable section

namespace Cert.BatchLayouts

open Idealize.ShloMosaic Idealize.ShloMosaic.ValueIdx

variable {α : Type}

/-- A `[1, b, c]` slab broadcast to `[a, b, c]` reads, at `(p, s, k)`, the slab's entry `(0, s, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (s : Fin b) (k : Fin c) :
    broadcastTo ⟨3, ![a, b, c]⟩ v h (ix3 p s k) = v (ix3 (0 : Fin 1) s k) := by
  refine broadcastTo_apply v h (ix3 p s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if c = 1 then 0 else k.val
    split
    · have := k.isLt; omega
    · rfl

/-- An `[a, 1, 1]` column of scalars broadcast to `[a, b, c]` reads, at `(p, s, k)`, the scalar of `p`. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (s : Fin b) (k : Fin c) :
    broadcastTo ⟨3, ![a, b, c]⟩ v h (ix3 p s k) = v (ix3 p (0 : Fin 1) (0 : Fin 1)) := by
  refine broadcastTo_apply v h (ix3 p s k) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.BatchLayouts

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.IdealPayload.lean ====
/-
  The contextualizer kernel's arithmetic read at an index, on the extended reals. The scores of a point are the
  batched product of the query rows with the key rows over the feature axis; the step weighs them by the point's
  block of V and multiplies, again batched, with the key rows over the key axis, adding the result to the
  accumulator; the gate is the left half's entry times the logistic of the accumulator plus the bias. Changes of
  float format are the identity here and a product into the zero splat is the plain sum.
-/
import proofs.«122940_j84679575208503_2_alg».proof.Proof.Gen.KernelIdeal.Skeleton
import proofs.«122940_j84679575208503_2_alg».proof.Proof.LibBatchLayouts
import proofs.«122940_j84679575208503_2_alg».proof.Proof.LibColumnLayouts
import Idealize.ShloMosaic.Lib.ValueIdx
import Idealize.ShloMosaic.Lib.Pipeline.Value
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx
open scoped BigOperators

/-! ## The two products' operand indices -/

theorem scores_lhs0 (i : S4x256x512.Idx) (q : dot_S4x256x512_S4x512x512_S4x256x512_2_2_1_1_0_0.contr.Idx) : (dot_S4x256x512_S4x512x512_S4x256x512_2_2_1_1_0_0.lhsIdx i q 0).val = (i 0).val := by
  unfold DotDims.lhsIdx
  rw [dif_pos (show (0 : Fin S4x256x512.rank) ∈ dot_S4x256x512_S4x512x512_S4x256x512_2_2_1_1_0_0.lhsBatch by decide)]
  rfl
theorem scores_lhs1 (i : S4x256x512.Idx) (q : dot_S4x256x512_S4x512x512_S4x256x512_2_2_1_1_0_0.contr.Idx) : (dot_S4x256x512_S4x512x512_S4x256x512_2_2_1_1_0_0.lhsIdx i q 1).val = (i 1).val := by
  unfold DotDims.lhsIdx
  rw [dif_neg (show ¬(1 : Fin S4x256x512.rank) ∈ dot_S4x256x512_S4x512x512_S4x256x512_2_2_1_1_0_0.lhsBatch by decide), dif_pos (show (1 : Fin S4x256x512.rank) ∈ dot_S4x256x512_S4x512x512_S4x256x512_2_2_1_1_0_0.lhsNonContracting by decide)]
  rfl
theorem scores_lhs2 (i : S4x256x512.Idx) (q : dot_S4x256x512_S4x512x512_S4x256x512_2_2_1_1_0_0.contr.Idx) : (dot_S4x256x512_S4x512x512_S4x256x512_2_2_1_1_0_0.lhsIdx i q 2).val = (q ⟨0, by decide⟩).val :=
  dot_S4x256x512_S4x512x512_S4x256x512_2_2_1_1_0_0.lhsIdx_val_of_single rfl i q
theorem scores_rhs0 (i : S4x256x512.Idx) (q : dot_S4x256x512_S4x512x512_S4x256x512_2_2_1_1_0_0.contr.Idx) : (dot_S4x256x512_S4x512x512_S4x256x512_2_2_1_1_0_0.rhsIdx i q 0).val = (i 0).val := by
  unfold DotDims.rhsIdx
  rw [dif_pos (show (0 : Fin S4x512x512.rank) ∈ dot_S4x256x512_S4x512x512_S4x256x512_2_2_1_1_0_0.rhsBatch by decide)]
  rfl
theorem scores_rhs1 (i : S4x256x512.Idx) (q : dot_S4x256x512_S4x512x512_S4x256x512_2_2_1_1_0_0.contr.Idx) : (dot_S4x256x512_S4x512x512_S4x256x512_2_2_1_1_0_0.rhsIdx i q 1).val = (i 2).val := by
  unfold DotDims.rhsIdx
  rw [dif_neg (show ¬(1 : Fin S4x512x512.rank) ∈ dot_S4x256x512_S4x512x512_S4x256x512_2_2_1_1_0_0.rhsBatch by decide), dif_pos (show (1 : Fin S4x512x512.rank) ∈ dot_S4x256x512_S4x512x512_S4x256x512_2_2_1_1_0_0.rhsNonContracting by decide)]
  rfl
theorem scores_rhs2 (i : S4x256x512.Idx) (q : dot_S4x256x512_S4x512x512_S4x256x512_2_2_1_1_0_0.contr.Idx) : (dot_S4x256x512_S4x512x512_S4x256x512_2_2_1_1_0_0.rhsIdx i q 2).val = (q ⟨0, by decide⟩).val :=
  dot_S4x256x512_S4x512x512_S4x256x512_2_2_1_1_0_0.rhsIdx_val_of_single rfl i q

theorem mix_lhs0 (i : S4x256x512.Idx) (q : dot_S4x256x512_S4x512x512_S4x256x512_2_1_1_2_0_0.contr.Idx) : (dot_S4x256x512_S4x512x512_S4x256x512_2_1_1_2_0_0.lhsIdx i q 0).val = (i 0).val := by
  unfold DotDims.lhsIdx
  rw [dif_pos (show (0 : Fin S4x256x512.rank) ∈ dot_S4x256x512_S4x512x512_S4x256x512_2_1_1_2_0_0.lhsBatch by decide)]
  rfl
theorem mix_lhs1 (i : S4x256x512.Idx) (q : dot_S4x256x512_S4x512x512_S4x256x512_2_1_1_2_0_0.contr.Idx) : (dot_S4x256x512_S4x512x512_S4x256x512_2_1_1_2_0_0.lhsIdx i q 1).val = (i 1).val := by
  unfold DotDims.lhsIdx
  rw [dif_neg (show ¬(1 : Fin S4x256x512.rank) ∈ dot_S4x256x512_S4x512x512_S4x256x512_2_1_1_2_0_0.lhsBatch by decide), dif_pos (show (1 : Fin S4x256x512.rank) ∈ dot_S4x256x512_S4x512x512_S4x256x512_2_1_1_2_0_0.lhsNonContracting by decide)]
  rfl
theorem mix_lhs2 (i : S4x256x512.Idx) (q : dot_S4x256x512_S4x512x512_S4x256x512_2_1_1_2_0_0.contr.Idx) : (dot_S4x256x512_S4x512x512_S4x256x512_2_1_1_2_0_0.lhsIdx i q 2).val = (q ⟨0, by decide⟩).val :=
  dot_S4x256x512_S4x512x512_S4x256x512_2_1_1_2_0_0.lhsIdx_val_of_single rfl i q
theorem mix_rhs0 (i : S4x256x512.Idx) (q : dot_S4x256x512_S4x512x512_S4x256x512_2_1_1_2_0_0.contr.Idx) : (dot_S4x256x512_S4x512x512_S4x256x512_2_1_1_2_0_0.rhsIdx i q 0).val = (i 0).val := by
  unfold DotDims.rhsIdx
  rw [dif_pos (show (0 : Fin S4x512x512.rank) ∈ dot_S4x256x512_S4x512x512_S4x256x512_2_1_1_2_0_0.rhsBatch by decide)]
  rfl
theorem mix_rhs1 (i : S4x256x512.Idx) (q : dot_S4x256x512_S4x512x512_S4x256x512_2_1_1_2_0_0.contr.Idx) : (dot_S4x256x512_S4x512x512_S4x256x512_2_1_1_2_0_0.rhsIdx i q 1).val = (q ⟨0, by decide⟩).val :=
  dot_S4x256x512_S4x512x512_S4x256x512_2_1_1_2_0_0.rhsIdx_val_of_single rfl i q
theorem mix_rhs2 (i : S4x256x512.Idx) (q : dot_S4x256x512_S4x512x512_S4x256x512_2_1_1_2_0_0.contr.Idx) : (dot_S4x256x512_S4x512x512_S4x256x512_2_1_1_2_0_0.rhsIdx i q 2).val = (i 2).val := by
  unfold DotDims.rhsIdx
  rw [dif_neg (show ¬(2 : Fin S4x512x512.rank) ∈ dot_S4x256x512_S4x512x512_S4x256x512_2_1_1_2_0_0.rhsBatch by decide), dif_pos (show (2 : Fin S4x512x512.rank) ∈ dot_S4x256x512_S4x512x512_S4x256x512_2_1_1_2_0_0.rhsNonContracting by decide)]
  rfl

/-- The scores: query row r against key row kk of batch b, summed over the 512 features. -/
theorem scores_apply (L : FVec Ideal S4x256x512 .bf16) (R : FVec Ideal S4x512x512 .bf16) (b : Fin 4) (r : Fin 256) (kk : Fin 512) :
    matmul dot_S4x256x512_S4x512x512_S4x256x512_2_2_1_1_0_0 none L R (constant S4x256x512 .f32 0x00000000#32) (ix3 b r kk)
      = ∑ e : Fin 512, L (ix3 b r e) * R (ix3 b kk e) := by
  simp only [matmul]
  rw [Ideal.matmul_constant_zero_apply, ← Equiv.sum_comp (ValueIdx.contrEquiv1 dot_S4x256x512_S4x512x512_S4x256x512_2_2_1_1_0_0 512 rfl rfl).symm]
  refine Finset.sum_congr rfl fun k _ => ?_
  have hk := ValueIdx.contrEquiv1_symm_val dot_S4x256x512_S4x512x512_S4x256x512_2_2_1_1_0_0 512 rfl rfl k
  have el : dot_S4x256x512_S4x512x512_S4x256x512_2_2_1_1_0_0.lhsIdx (ix3 b r kk) ((ValueIdx.contrEquiv1 dot_S4x256x512_S4x512x512_S4x256x512_2_2_1_1_0_0 512 rfl rfl).symm k) = ix3 b r k := funext fun a => Fin.ext (by
    match a with
    | ⟨0, _⟩ => exact scores_lhs0 _ _
    | ⟨1, _⟩ => exact scores_lhs1 _ _
    | ⟨2, _⟩ => exact (scores_lhs2 _ _).trans hk)
  have er : dot_S4x256x512_S4x512x512_S4x256x512_2_2_1_1_0_0.rhsIdx (ix3 b r kk) ((ValueIdx.contrEquiv1 dot_S4x256x512_S4x512x512_S4x256x512_2_2_1_1_0_0 512 rfl rfl).symm k) = ix3 b kk k := funext fun a => Fin.ext (by
    match a with
    | ⟨0, _⟩ => exact scores_rhs0 _ _
    | ⟨1, _⟩ => exact scores_rhs1 _ _
    | ⟨2, _⟩ => exact (scores_rhs2 _ _).trans hk)
  rw [el, er]

/-- The mixing product: the weighted scores of row r against feature d of the key rows, summed over the 512 keys. -/
theorem mix_apply (L : FVec Ideal S4x256x512 .bf16) (R : FVec Ideal S4x512x512 .bf16) (b : Fin 4) (r : Fin 256) (d : Fin 512) :
    matmul dot_S4x256x512_S4x512x512_S4x256x512_2_1_1_2_0_0 none L R (constant S4x256x512 .f32 0x00000000#32) (ix3 b r d)
      = ∑ kk : Fin 512, L (ix3 b r kk) * R (ix3 b kk d) := by
  simp only [matmul]
  rw [Ideal.matmul_constant_zero_apply, ← Equiv.sum_comp (ValueIdx.contrEquiv1 dot_S4x256x512_S4x512x512_S4x256x512_2_1_1_2_0_0 512 rfl rfl).symm]
  refine Finset.sum_congr rfl fun k _ => ?_
  have hk := ValueIdx.contrEquiv1_symm_val dot_S4x256x512_S4x512x512_S4x256x512_2_1_1_2_0_0 512 rfl rfl k
  have el : dot_S4x256x512_S4x512x512_S4x256x512_2_1_1_2_0_0.lhsIdx (ix3 b r d) ((ValueIdx.contrEquiv1 dot_S4x256x512_S4x512x512_S4x256x512_2_1_1_2_0_0 512 rfl rfl).symm k) = ix3 b r k := funext fun a => Fin.ext (by
    match a with
    | ⟨0, _⟩ => exact mix_lhs0 _ _
    | ⟨1, _⟩ => exact mix_lhs1 _ _
    | ⟨2, _⟩ => exact (mix_lhs2 _ _).trans hk)
  have er : dot_S4x256x512_S4x512x512_S4x256x512_2_1_1_2_0_0.rhsIdx (ix3 b r d) ((ValueIdx.contrEquiv1 dot_S4x256x512_S4x512x512_S4x256x512_2_1_1_2_0_0 512 rfl rfl).symm k) = ix3 b k d := funext fun a => Fin.ext (by
    match a with
    | ⟨0, _⟩ => exact mix_rhs0 _ _
    | ⟨1, _⟩ => exact (mix_rhs1 _ _).trans hk
    | ⟨2, _⟩ => exact mix_rhs2 _ _)
  rw [el, er]

/-! ## The three payloads -/

/-- The cleared accumulator is zero everywhere. -/
theorem clear_apply (j : S4x256x512.Idx) : k0_pay1 (F := Ideal) j = 0 := by
  unfold k0_pay1
  rw [shapeCast_self]
  exact Ideal.ofBits_zero_f32

/-- The block of V laid under every batch: entry (b, r, kk) is V's entry (r, kk). -/
theorem weights_apply (v : Vec Ideal S256x512 .bf16) (b : Fin 4) (r : Fin 256) (kk : Fin 512) :
    broadcastTo S4x256x512 (shapeCast S1x256x512 (shapeCast S1x256x512 (shapeCast S256x512 v shapeCasts_S256x512_S256x512) shapeCasts_S256x512_S1x256x512) shapeCasts_S1x256x512_S1x256x512) broadcasts_S1x256x512_S4x256x512 (ix3 b r kk)
      = v (ix2 r kk) := by
  rw [shapeCast_self, shapeCast_self]
  rw [Cert.BatchLayouts.broadcastTo_1bc_abc_apply]
  rw [shapeCast_addUnit_apply]
  exact congrArg v (funext fun a => by match a with | ⟨0, _⟩ => rfl | ⟨1, _⟩ => rfl)

/-- The step: the accumulator plus, over the point's 512 keys, V's entry times the score, times the key row's feature. -/
theorem step_apply (xq : Vec Ideal S4x256x512 .bf16) (xk : Vec Ideal S4x512x512 .bf16) (v : Vec Ideal S256x512 .bf16)
    (acc : Vec Ideal S4x256x512 .f32) (b : Fin 4) (r : Fin 256) (d : Fin 512) :
    k0_pay2 xq xk v acc (ix3 b r d)
      = acc (ix3 b r d) + ∑ kk : Fin 512, (v (ix2 r kk) * ∑ e : Fin 512, xq (ix3 b r e) * xk (ix3 b kk e)) * xk (ix3 b kk d) := by
  unfold k0_pay2
  rw [shapeCast_self, addf_apply, mix_apply]
  refine congrArg (acc (ix3 b r d) + ·) (Finset.sum_congr rfl fun kk _ => ?_)
  rw [mulf_apply, truncf_apply, weights_apply, shapeCast_self, shapeCast_self, scores_apply]

/-- The gate: the left half's entry times the logistic of the accumulator plus the bias of the feature. -/
theorem gate_apply (acc : Vec Ideal S4x256x512 .f32) (bias : Vec Ideal S1x1x512 .f32) (xl : Vec Ideal S4x256x512 .f32)
    (b : Fin 4) (r : Fin 256) (d : Fin 512) :
    k0_pay3 acc bias xl (ix3 b r d)
      = xl (ix3 b r d) * Ideal.logistic (acc (ix3 b r d) + bias (ix3 (0 : Fin 1) (0 : Fin 1) d)) := by
  unfold k0_pay3
  rw [mulf_apply, shapeCast_self]
  refine congrArg (fun z => xl (ix3 b r d) * Ideal.logistic z) ?_
  rw [addf_apply, Cert.ColumnLayouts.broadcastTo_11c_abc_apply]

end Cert.KernelIdeal.Payload

end
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.GateSpec.lean ====
/-
  The contextualizer's result, index by index, as one function of four arrays: the normalised right half xn
  [4, 4096, 512], the mixing weights V [4096, 4096], the left half xl [4, 4096, 512] and the bias [1, 1, 512].
  For batch b, query row q and feature d,
      out(b, q, d) = xl(b, q, d) · logistic( Σₖ (V(q, k) · ⟨xn(b, q, ·), xn(b, k, ·)⟩) · xn(b, k, d) + bias(d) ),
  the sum over all 4096 key rows k. A kernel that walks the keys in 8 consecutive blocks of 512 forms the same
  sum block by block: addition on the extended reals is commutative and associative, so regrouping a finite sum
  needs no finiteness of its terms.
-/
import Idealize.ShloMosaic.PureOps.Ideal
import Idealize.ShloMosaic.Lib.ValueIdx
import proofs.«122940_j84679575208503_2_alg».proof.Proof.LibSumBlocks

noncomputable section

namespace Cert.Gate

open Idealize.ShloMosaic Idealize.ShloMosaic.ValueIdx
open scoped BigOperators

abbrev SRows : Shape := ⟨3, ![4, 4096, 512]⟩
abbrev SMix : Shape := ⟨2, ![4096, 4096]⟩
abbrev SBias : Shape := ⟨3, ![1, 1, 512]⟩

/-- The similarity of query row q and key row k of batch b: their inner product over the 512 features. -/
def sim (xn : SRows.Idx → EReal) (b : Fin 4) (q k : Fin 4096) : EReal :=
  ∑ e : Fin 512, xn (ix3 b q e) * xn (ix3 b k e)

/-- Key row k's contribution to feature d of query row q: its weighted similarity times its own feature d. -/
def term (xn : SRows.Idx → EReal) (vm : SMix.Idx → EReal) (b : Fin 4) (q : Fin 4096) (d : Fin 512) (k : Fin 4096) : EReal :=
  (vm (ix2 q k) * sim xn b q k) * xn (ix3 b k d)

/-- The context of query row q at feature d: the contributions of all 4096 key rows. -/
def ctx (xn : SRows.Idx → EReal) (vm : SMix.Idx → EReal) (b : Fin 4) (q : Fin 4096) (d : Fin 512) : EReal :=
  ∑ k : Fin 4096, term xn vm b q d k

/-- The gated left half. -/
def gated (xn : SRows.Idx → EReal) (vm : SMix.Idx → EReal) (xl : SRows.Idx → EReal) (bias : SBias.Idx → EReal) :
    SRows.Idx → EReal := fun i =>
  xl i * Ideal.logistic (ctx xn vm (i 0) (i 1) (i 2) + bias (ix3 (0 : Fin 1) (0 : Fin 1) (i 2)))

/-- Key row 512·s + r: row r of key block s. -/
def keyAt (s : Fin 8) (r : Fin 512) : Fin 4096 := ⟨512 * s.val + r.val, by have := s.isLt; have := r.isLt; omega⟩

/-- The context summed block by block: 8 blocks of 512 consecutive key rows. -/
theorem ctx_blocks (xn : SRows.Idx → EReal) (vm : SMix.Idx → EReal) (b : Fin 4) (q : Fin 4096) (d : Fin 512) :
    ctx xn vm b q d = ∑ s : Fin 8, ∑ r : Fin 512, term xn vm b q d (keyAt s r) :=
  Cert.SumBlocks.sum_blocks 8 512 (term xn vm b q d)

end Cert.Gate

end
-- ==== Proof.IdealFold.lean ====
/-
  The contextualizer kernel's accumulator over one query block, on the extended reals. Along the eight points
  of a query block the accumulator is reset at the first point and stepped at each later one, and every step adds
  that point's key block's contributions; so after the last point it holds zero plus the eight blocks' sums, which
  together are the sum over all 4096 keys of the context's terms at the block's query rows.
-/
import proofs.«122940_j84679575208503_2_alg».proof.Proof.IdealBlocks
import proofs.«122940_j84679575208503_2_alg».proof.Proof.IdealPayload
import proofs.«122940_j84679575208503_2_alg».proof.Proof.GateSpec

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The four arrays the region is handed -/

abbrev xnA (c : Dev nD) : Cert.Gate.SRows.Idx → EReal := V m c main_v10
abbrev vmA (c : Dev nD) : Cert.Gate.SMix.Idx → EReal := V m c main_v11
abbrev xlA (c : Dev nD) : Cert.Gate.SRows.Idx → EReal := V m c main_v0
abbrev biasA (c : Dev nD) : Cert.Gate.SBias.Idx → EReal := V m c main_arg2

/-! ## The step at a point -/

/-- The body's step at point t: the accumulator plus the point's key block's contributions. -/
def stepAt (c : Dev nD) (t : Fin cfg0.N) (acc : Vec Ideal S4x256x512 .f32) : Vec Ideal S4x256x512 .f32 :=
  k0_pay2 (iblk m c 0 t) (keyRows (grid0.coords t) (iblk m c 1 t)) (iblk m c 2 t) acc

/-- The accumulator after position n. -/
def accOf (c : Dev nD) (n : ℕ) (hn : n < cfg0.N) : Vec Ideal S4x256x512 .f32 := (stateAt m c n hn).2

set_option maxHeartbeats 4000000 in
/-- At a point with k = 0 the accumulator is the step over the cleared accumulator. -/
theorem accOf_reset (c : Dev nD) (t : Fin cfg0.N) (h0 : t.val % 8 = 0) :
    accOf m c t.val t.isLt = stepAt m c t (k0_pay1 (F := Ideal)) := by
  have h1 : ¬t.val % 8 = 7 := by omega
  have e := congrArg Prod.snd (stateAt_first m c t h0 h1)
  have a := firstAcc_eq c (grid0.coords t) (mq t) (hq t) (mk t) (hk t) (mv t) (hv t) (ml t) (hl t) (mb t) (hb t) (mo t) (ho t) accM (Memref.isWhole_whole _) ((firstKey_iff t).mpr h0) (fun h => h1 ((lastKey_iff t).mp h)) (iblk m c 0 t) (iblk m c 1 t) (iblk m c 2 t) (iblk m c 3 t) (iblk m c 4 t)
  exact e.trans a

set_option maxHeartbeats 4000000 in
/-- At any other point it is the step over what the point before left. -/
theorem accOf_next (c : Dev nD) (t : Fin cfg0.N) (h0 : ¬t.val % 8 = 0) :
    accOf m c t.val t.isLt = stepAt m c t (accOf m c (t.val - 1) (Nat.lt_of_le_of_lt (Nat.sub_le _ _) t.isLt)) := by
  by_cases h1 : t.val % 8 = 7
  · have e := congrArg Prod.snd (stateAt_last m c t h0 h1)
    have a := lastAcc_eq c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h1) (iblk m c 0 t) (iblk m c 1 t) (iblk m c 2 t) (iblk m c 3 t) (iblk m c 4 t) (stateAt m c (t.val - 1) (Nat.lt_of_le_of_lt (Nat.sub_le _ _) t.isLt)).2
    exact e.trans a
  · have e := congrArg Prod.snd (stateAt_mid m c t h0 h1)
    have a := midAcc_eq c (grid0.coords t) (mq t) (hq t) (mk t) (hk t) (mv t) (hv t) (ml t) (hl t) (mb t) (hb t) (mo t) (ho t) accM (Memref.isWhole_whole _) (fun h => h0 ((firstKey_iff t).mp h)) (fun h => h1 ((lastKey_iff t).mp h)) (iblk m c 0 t) (iblk m c 1 t) (iblk m c 2 t) (iblk m c 3 t) (iblk m c 4 t) (stateAt m c (t.val - 1) (Nat.lt_of_le_of_lt (Nat.sub_le _ _) t.isLt)).2
    exact e.trans a

/-- The same at positions: the reset at the multiples of 8, -/
theorem accOf_first (c : Dev nD) (n : ℕ) (hn : n < cfg0.N) (h0 : n % 8 = 0) :
    accOf m c n hn = stepAt m c ⟨n, hn⟩ (k0_pay1 (F := Ideal)) := accOf_reset m c ⟨n, hn⟩ h0

/-- the step elsewhere. -/
theorem accOf_step (c : Dev nD) (n : ℕ) (hn : n + 1 < cfg0.N) (h0 : ¬(n + 1) % 8 = 0) :
    accOf m c (n + 1) hn = stepAt m c ⟨n + 1, hn⟩ (accOf m c n (Nat.lt_of_succ_lt hn)) := accOf_next m c ⟨n + 1, hn⟩ h0

/-- Along the run of points 8q … 8q + j (j < 8) the accumulator is the fold of the steps from the reset. -/
theorem acc_run (c : Dev nD) (q : ℕ) : ∀ (j : ℕ) (_ : j < 8) (h : 8 * q + j < cfg0.N),
    accOf m c (8 * q + j) h
      = Pipeline.accAt (fun n hn => stepAt m c ⟨n, hn⟩ (k0_pay1 (F := Ideal))) (fun n hn acc => stepAt m c ⟨n, hn⟩ acc) (8 * q) j h :=
  Pipeline.eq_accAt (accOf m c) 8 (fun n hn => stepAt m c ⟨n, hn⟩ (k0_pay1 (F := Ideal))) (fun n hn acc => stepAt m c ⟨n, hn⟩ acc)
    (fun n h h0 => accOf_first m c n h h0) (fun n h h0 => accOf_step m c n h h0) q

/-! ## The step adds the point's addend -/

/-- The step splits off the accumulator. -/
theorem step_split (xq : Vec Ideal S4x256x512 .bf16) (xk : Vec Ideal S4x512x512 .bf16) (v : Vec Ideal S256x512 .bf16)
    (acc : Vec Ideal S4x256x512 .f32) (j : S4x256x512.Idx) :
    k0_pay2 xq xk v acc j = acc j + k0_pay2 xq xk v (fun _ => (0 : EReal)) j := by
  obtain ⟨b, r, d, rfl⟩ : ∃ (b : Fin 4) (r : Fin 256) (d : Fin 512), j = ix3 b r d := ⟨j 0, j 1, j 2, eq_ix3 j⟩
  simp only [Payload.step_apply, zero_add]

/-- Point n's addend: what its step adds to the accumulator (zero past the grid, where nothing reads it). -/
def addend (c : Dev nD) (n : ℕ) (j : S4x256x512.Idx) : EReal :=
  if h : n < cfg0.N then stepAt m c ⟨n, h⟩ (fun _ => (0 : EReal)) j else 0

/-- After the last point of query block q the accumulator is zero plus the eight points' addends. -/
theorem acc_sum (c : Dev nD) (q : ℕ) (h : 8 * q + 7 < cfg0.N) (j : S4x256x512.Idx) :
    accOf m c (8 * q + 7) h j = 0 + ∑ s ∈ Finset.range 8, addend m c (8 * q + s) j := by
  rw [acc_run m c q 7 (by decide) h]
  exact Pipeline.accAt_add_apply (fun n hn => stepAt m c ⟨n, hn⟩ (k0_pay1 (F := Ideal))) (fun n hn acc => stepAt m c ⟨n, hn⟩ acc)
    (fun _ => (0 : EReal)) (addend m c) (8 * q) 7
    (fun hb i => by
      show stepAt m c ⟨8 * q, hb⟩ (k0_pay1 (F := Ideal)) i = 0 + addend m c (8 * q) i
      unfold addend stepAt; rw [dif_pos hb, step_split, Payload.clear_apply])
    (fun n hn acc i _ _ => by
      show stepAt m c ⟨n, hn⟩ acc i = acc i + addend m c n i
      unfold addend stepAt; rw [dif_pos hn, step_split])
    7 (le_refl 7) h j

/-- A point's addend at (b, r, d): the context's terms of query row 256·(t/8) + r over the point's 512 keys. -/
theorem addend_eq (c : Dev nD) (t : Fin cfg0.N) (b : Fin 4) (r : Fin 256) (d : Fin 512) :
    stepAt m c t (fun _ => (0 : EReal)) (ix3 b r d)
      = ∑ kk : Fin 512, Cert.Gate.term (xnA m c) (vmA m c) b (rowAt t r) d (keyRowAt t kk) := by
  unfold stepAt
  simp only [Payload.step_apply, zero_add]
  refine Finset.sum_congr rfl fun kk _ => ?_
  unfold Cert.Gate.term Cert.Gate.sim
  rw [read_v, read_k]
  refine congrArg (fun z : EReal => (vmA m c (ix2 (rowAt t r) (keyRowAt t kk)) * z) * xnA m c (ix3 b (keyRowAt t kk) d))
    (Finset.sum_congr rfl fun e _ => ?_)
  rw [read_q, read_k]

end Cert.KernelIdeal.Region

end
-- ==== Proof.IdealFinal.lean ====
/-
  The contextualizer kernel's result array, on the extended reals. The output window is written back at the last
  point of each query block, and what that point leaves in its buffer is the gate of the finished accumulator:
  block q of the gated left half, rows 256·q … 256·q + 255. The sixteen query blocks tile the array, so after
  the run the array is the specification's function of the four arrays the region was handed.
-/
import proofs.«122940_j84679575208503_2_alg».proof.Proof.IdealFold

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-- The specification at the arrays the region is handed. -/
abbrev resultA (c : Dev nD) : Cert.Gate.SRows.Idx → EReal :=
  Cert.Gate.gated (xnA m c) (vmA m c) (xlA m c) (biasA m c)

/-- After the last point of a query block the accumulator is zero plus the context of the block's query rows. -/
theorem ctx_at (c : Dev nD) (t : Fin cfg0.N) (h7 : t.val % 8 = 7) (b : Fin 4) (r : Fin 256) (d : Fin 512) :
    accOf m c t.val t.isLt (ix3 b r d) = 0 + Cert.Gate.ctx (xnA m c) (vmA m c) b (rowAt t r) d := by
  have hN := point_lt t
  have e : 8 * (t.val / 8) + 7 = t.val := by omega
  have hq : 8 * (t.val / 8) + 7 < cfg0.N := lt_of_eq_of_lt e t.isLt
  have same : ∀ (u : ℕ) (hu : u < cfg0.N), u = t.val → accOf m c u hu = accOf m c t.val t.isLt :=
    fun u hu e => by subst e; rfl
  rw [← same _ hq e, acc_sum m c (t.val / 8) hq, Cert.Gate.ctx_blocks, Finset.sum_range]
  refine congrArg (0 + ·) (Finset.sum_congr rfl fun s _ => ?_)
  have hs : 8 * (t.val / 8) + s.val < cfg0.N := by
    have := s.isLt
    have hN' : cfg0.N = 128 := N_0
    omega
  unfold addend
  rw [dif_pos hs, addend_eq]
  refine Finset.sum_congr rfl fun kk _ => ?_
  have e1 : rowAt ⟨8 * (t.val / 8) + s.val, hs⟩ r = rowAt t r := Fin.ext (by
    show 256 * ((8 * (t.val / 8) + s.val) / 8) + r.val = 256 * (t.val / 8) + r.val
    have := s.isLt; omega)
  have e2 : keyRowAt ⟨8 * (t.val / 8) + s.val, hs⟩ kk = Cert.Gate.keyAt s kk := Fin.ext (by
    show 512 * ((8 * (t.val / 8) + s.val) % 8) + kk.val = 512 * s.val + kk.val
    have := s.isLt; omega)
  rw [e1, e2]

set_option maxHeartbeats 4000000 in
/-- At the last point of a query block the output buffer holds the gate of that point's accumulator. -/
theorem out_at (c : Dev nD) (t : Fin cfg0.N) (h0 : ¬t.val % 8 = 0) (h7 : t.val % 8 = 7) :
    (stateAt m c t.val t.isLt).1 = k0_pay3 (accOf m c t.val t.isLt) (iblk m c 4 t) (iblk m c 3 t) := by
  have e1 := congrArg Prod.fst (stateAt_last m c t h0 h7)
  have a1 := lastOut_eq c (grid0.coords t) (mq t) (hq t) (mk t) (hk t) (mv t) (hv t) (ml t) (hl t) (mb t) (hb t) (mo t) (ho t) accM (Memref.isWhole_whole _) (fun h => h0 ((firstKey_iff t).mp h)) ((lastKey_iff t).mpr h7) (iblk m c 0 t) (iblk m c 1 t) (iblk m c 2 t) (iblk m c 3 t) (iblk m c 4 t) (stateAt m c (t.val - 1) (Nat.lt_of_le_of_lt (Nat.sub_le _ _) t.isLt)).2
  rw [accOf_next m c t h0]
  exact e1.trans a1

/-- WHAT A FLUSHING POINT WRITES BACK is its block of the specification. -/
theorem flushed_eq (c : Dev nD) (t : Fin cfg0.N) (hf : (cfg0.win 5).flush t = true) :
    (dats m 0 c).flushed 5 t = ((cfg0.win 5).blk t).view.read (Elt Ideal) (resultA m c) := by
  have h7 : t.val % 8 = 7 := (flush0_5 t).mp hf
  have h0 : ¬t.val % 8 = 0 := by omega
  show (cfg0.win 5).cut (grid0.coords t) ((dats m 0 c).after 5 t) = _
  rw [after_5, out_at m c t h0 h7]
  refine funext fun (j : S4x256x512.Idx) => ?_
  obtain ⟨b, r, d, rfl⟩ : ∃ (b : Fin 4) (r : Fin 256) (d : Fin 512), j = ix3 b r d := ⟨j 0, j 1, j 2, eq_ix3 j⟩
  show k0_pay3 (accOf m c t.val t.isLt) (iblk m c 4 t) (iblk m c 3 t) (ix3 b r d)
    = resultA m c (((cfg0.win 5).blk t).view.emb (ix3 b r d))
  have hemb : ((cfg0.win 5).blk t).view.emb (ix3 b r d) = ix3 b (rowAt t r) d := funext fun a => Fin.ext (by
    obtain ⟨-, -, -, -, -, -, -, -, -, -, -, -, -, -, e0, e1, e2, -⟩ := idx_facts t
    match a with
    | ⟨0, _⟩ => show win0_5.index t (0 : Fin 3) * 4 + 1 * b.val = b.val; omega
    | ⟨1, _⟩ => show win0_5.index t (1 : Fin 3) * 256 + 1 * r.val = 256 * (t.val / 8) + r.val; omega
    | ⟨2, _⟩ => show win0_5.index t (2 : Fin 3) * 512 + 1 * d.val = d.val; omega)
  rw [hemb, Payload.gate_apply, ctx_at m c t h7, read_bias, read_left, zero_add]
  all_goals rfl

/-- An index of the array is in point t's block iff each coordinate is in the block's range on its axis. -/
theorem mem_blk (t : Fin cfg0.N) (i : S4x4096x512.Idx) :
    i ∈ ((cfg0.win 5).blk t).view.set ↔ ∀ a : Fin 3, win0_5.index t a * S4x256x512.size a ≤ (i a).val
      ∧ (i a).val < win0_5.index t a * S4x256x512.size a + S4x256x512.size a := by
  show i ∈ ((View.whole main_v12).slice (win0_5.rect t)).set ↔ _
  rw [View.set_slice_whole, Rect.mem_set_unit]
  exact Iff.rfl

/-- Every index of the array is in the block of the last point of its query block. -/
theorem cover (i : S4x4096x512.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 512 := (i 2).isLt
  have hb : 8 * ((i 1).val / 256) + 7 < cfg0.N := by rw [show cfg0.N = 128 from N_0]; omega
  refine ⟨⟨8 * ((i 1).val / 256) + 7, hb⟩, (flush0_5 _).mpr (by show (8 * ((i 1).val / 256) + 7) % 8 = 7; omega), ?_⟩
  rw [mem_blk]
  obtain ⟨-, -, -, -, -, -, -, -, -, -, -, -, -, -, e0, e1, e2, -⟩ := idx_facts ⟨8 * ((i 1).val / 256) + 7, hb⟩
  have e1' : win0_5.index ⟨8 * ((i 1).val / 256) + 7, hb⟩ (1 : Fin 3) = (8 * ((i 1).val / 256) + 7) / 8 := e1
  intro a
  match a with
  | ⟨0, _⟩ =>
    show win0_5.index ⟨8 * ((i 1).val / 256) + 7, hb⟩ (0 : Fin 3) * 4 ≤ (i 0).val
      ∧ (i 0).val < win0_5.index ⟨8 * ((i 1).val / 256) + 7, hb⟩ (0 : Fin 3) * 4 + 4
    omega
  | ⟨1, _⟩ =>
    show win0_5.index ⟨8 * ((i 1).val / 256) + 7, hb⟩ (1 : Fin 3) * 256 ≤ (i 1).val
      ∧ (i 1).val < win0_5.index ⟨8 * ((i 1).val / 256) + 7, hb⟩ (1 : Fin 3) * 256 + 256
    omega
  | ⟨2, _⟩ =>
    show win0_5.index ⟨8 * ((i 1).val / 256) + 7, hb⟩ (2 : Fin 3) * 512 ≤ (i 2).val
      ∧ (i 2).val < win0_5.index ⟨8 * ((i 1).val / 256) + 7, hb⟩ (2 : Fin 3) * 512 + 512
    omega

/-- THE ARRAY after the run is the specification of the four arrays the region was handed. -/
theorem final (c : Dev nD) : (dats m 0 c).arrAt 5 cfg0.N = resultA m c :=
  (dats m 0 c).arrAt_eq_of_cover 5 (resultA m c) (fun t hf => flushed_eq m c t hf) cover

/-- The run, read: the result array at the specification, the three arguments as they were. -/
theorem run : θ_run defs (onTc (τ := τ) (main (F := Ideal))) ⟨m, fun _ => 0, ρ⟩ fun r => ∀ c : Dev nD,
      r.2.mem ((c.tc : Thread nD τ).loc main_v12) = resultA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 5).trans (final m c),
     ((h c).2 main_arg0 (Pipeline.mem_restRefs_of main_arg0 rfl (by decide))).trans (V_arg0 m c),
     ((h c).2 main_arg1 (Pipeline.mem_restRefs_of main_arg1 rfl (by decide))).trans (V_arg1 m c),
     ((h c).1 4).trans (((dats m 0 c).arrAt_in 4 rfl _).trans ((A_eq m c 4).trans (V_arg2 m c)))⟩) (run_main m ρ)

end Cert.KernelIdeal.Region

end
-- ==== Proof.IdealHost.lean ====
/-
  The arrays the contextualizer kernel's region is handed, as functions of the arguments. The host lines before
  the region are the same lines the reference starts with — the two halves of x, the right half divided by
  max(‖row‖, ε) — followed by two narrowings to bf16, which on the extended reals change nothing. So the kernel's
  normalised right half and left half are the reference's own stages of x, its weights are V and its bias the bias.
-/
import proofs.«122940_j84679575208503_2_alg».proof.Proof.IdealFinal
import proofs.«122940_j84679575208503_2_alg».proof.Proof.Gen.ReferenceIdeal.Read

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-- The normalised right half is the reference's stage of the same name. -/
theorem host_xn (c : Dev nD) :
    xnA m c = Cert.ReferenceIdeal.Read.val_main_v9 (F := Ideal) (m ((c : Thread nD τ).loc main_arg0)) := by
  show StableHlo.after hostOps0 (fun b => m (c, b)) (Proc.devRef .tc main_v10) = _
  after_results
  rfl

/-- The weights are V. -/
theorem host_vm (c : Dev nD) : vmA m c = m ((c : Thread nD τ).loc main_arg1) := by
  show StableHlo.after hostOps0 (fun b => m (c, b)) (Proc.devRef .tc main_v11) = _
  after_results
  rfl

/-- The left half is the reference's slice. -/
theorem host_xl (c : Dev nD) :
    xlA m c = Cert.ReferenceIdeal.Read.val_main_v0 (F := Ideal) (m ((c : Thread nD τ).loc main_arg0)) := by
  show StableHlo.after hostOps0 (fun b => m (c, b)) (Proc.devRef .tc main_v0) = _
  after_results
  rfl

/-- The bias is the bias. -/
theorem host_bias (c : Dev nD) : biasA m c = m ((c : Thread nD τ).loc main_arg2) := V_arg2 m c

/-- The kernel's result array is the specification at the reference's stages of the arguments. -/
theorem result_host (c : Dev nD) :
    resultA m c = Cert.Gate.gated (Cert.ReferenceIdeal.Read.val_main_v9 (F := Ideal) (m ((c : Thread nD τ).loc main_arg0)))
      (m ((c : Thread nD τ).loc main_arg1)) (Cert.ReferenceIdeal.Read.val_main_v0 (F := Ideal) (m ((c : Thread nD τ).loc main_arg0)))
      (m ((c : Thread nD τ).loc main_arg2)) := by
  unfold resultA
  rw [host_xn, host_vm, host_xl, host_bias]

end Cert.KernelIdeal.Region

end
-- ==== Proof.RefGate.lean ====
/-
  The reference's result is the specification. Its host program normalises the right half, forms all 4096 × 4096
  similarities per batch, weighs them by V, multiplies with the normalised rows, adds the bias, and gates the
  left half by 1 / (1 + exp(−·)) — which on the extended reals is the logistic function, its constant one the
  real 1. Read index by index through its stages, that is the specification at the reference's own normalised
  right half, V, left half and bias.
-/
import proofs.«122940_j84679575208503_2_alg».proof.Proof.Gen.ReferenceIdeal.Read
import proofs.«122940_j84679575208503_2_alg».proof.Proof.GateSpec
import Idealize.ShloMosaic.PureOps.IdealRules

set_option maxRecDepth 16384

noncomputable section

namespace Cert.ReferenceIdeal.RefValue

open Cert.ReferenceIdeal Cert.ReferenceIdeal.Read
open Idealize.ShloMosaic Idealize.ShloMosaic.ValueIdx
open scoped BigOperators

/-- The word 0x3F800000 is the real 1. -/
theorem one_word : Ideal.ofBits .f32 0x3F800000#32 = 1 := IdealRules.sign_bit.ideal_onePat .f32

/-- The reference's second product at (b, q, d) is the context of query row q. -/
theorem ctx_eq (x0 : (⟨S4x4096x1024, .f32⟩ : BufTy).Contents (Elt Ideal)) (x1 : (⟨S4096x4096, .f32⟩ : BufTy).Contents (Elt Ideal)) (b : Fin 4) (q : Fin 4096) (d : Fin 512) :
    val_main_v14 (F := Ideal) x0 x1 (ix3 b q d) = Cert.Gate.ctx (val_main_v9 (F := Ideal) x0) x1 b q d := by
  rw [val_main_v14_apply]
  unfold Cert.Gate.ctx Cert.Gate.term
  refine Finset.sum_congr rfl fun k _ => ?_
  have el : lidx_main_v14 (ix3 b q d) k = ix3 b q k := funext fun a => Fin.ext (by match a with | ⟨0, _⟩ => rfl | ⟨1, _⟩ => rfl | ⟨2, _⟩ => rfl)
  have er : ridx_main_v14 (ix3 b q d) k = ix3 b k d := funext fun a => Fin.ext (by match a with | ⟨0, _⟩ => rfl | ⟨1, _⟩ => rfl | ⟨2, _⟩ => rfl)
  rw [el, er, val_main_v13_apply, val_main_v12_apply, val_main_v11_apply, val_main_v10_apply]
  have e12 : idx_main_v11 (idx_main_v12 (ix3 b q k)) = ix2 q k := funext fun a => Fin.ext (by match a with | ⟨0, _⟩ => rfl | ⟨1, _⟩ => rfl)
  rw [e12]
  unfold Cert.Gate.sim
  refine congrArg (fun z : EReal => (x1 (ix2 q k) * z) * val_main_v9 (F := Ideal) x0 (ix3 b k d)) (Finset.sum_congr rfl fun e _ => ?_)
  have e1 : lidx_main_v10 (ix3 b q k) e = ix3 b q e := funext fun a => Fin.ext (by match a with | ⟨0, _⟩ => rfl | ⟨1, _⟩ => rfl | ⟨2, _⟩ => rfl)
  have e2 : ridx_main_v10 (ix3 b q k) e = ix3 b k e := funext fun a => Fin.ext (by match a with | ⟨0, _⟩ => rfl | ⟨1, _⟩ => rfl | ⟨2, _⟩ => rfl)
  rw [e1, e2]

/-- The reference's result term is the specification at its own stages. -/
theorem result_eq (x0 : (⟨S4x4096x1024, .f32⟩ : BufTy).Contents (Elt Ideal)) (x1 : (⟨S4096x4096, .f32⟩ : BufTy).Contents (Elt Ideal)) (x2 : (⟨S1x1x512, .f32⟩ : BufTy).Contents (Elt Ideal)) :
    val_main_v23 (F := Ideal) x0 x1 x2
      = Cert.Gate.gated (val_main_v9 (F := Ideal) x0) x1 (val_main_v0 (F := Ideal) x0) x2 := by
  funext i
  obtain ⟨b, q, d, rfl⟩ : ∃ (b : Fin 4) (q : Fin 4096) (d : Fin 512), i = ix3 b q d := ⟨i 0, i 1, i 2, eq_ix3 i⟩
  have hb : val_main_v15 (F := Ideal) x2 (ix3 b q d) = x2 (ix3 (0 : Fin 1) (0 : Fin 1) d) := by
    rw [val_main_v15_apply]
    exact congrArg x2 (funext fun a => Fin.ext (by match a with | ⟨0, _⟩ => rfl | ⟨1, _⟩ => rfl | ⟨2, _⟩ => rfl))
  rw [val_main_v23_apply, val_main_v22_apply, val_main_v21_apply, val_main_cst_2_apply, val_main_v20_apply, val_main_v19_apply,
    val_main_cst_1_apply, val_main_v18_apply, val_main_v17_apply, val_main_v16_apply, ctx_eq, hb]
  simp only [Ideal.mulf_def, Ideal.hostDivf_def, Ideal.addf_def, Ideal.hostUnary_exp_def, Ideal.hostNegf_def, Ideal.negf_def,
    Ideal.ofBits_def, one_word]
  rfl

end Cert.ReferenceIdeal.RefValue

end
-- ==== Proof.Claims.lean ====
/-
  The five claims. Both kernels' frames are their regions' runs; the reference's frame is its run with the
  result dropped; nothing was rewritten by the idealization, so it preserves trivially; and on the extended reals
  the kernel's result array and the reference's result are the same specification of the same arguments: the
  gated left half, with the context summed over all keys — by the kernel in eight blocks, by the reference at once.
-/
import proofs.«122940_j84679575208503_2_alg».proof.Defs
import proofs.«122940_j84679575208503_2_alg».proof.Proof.BitsLaunch
import proofs.«122940_j84679575208503_2_alg».proof.Proof.IdealHost
import proofs.«122940_j84679575208503_2_alg».proof.Proof.RefGate
import proofs.«122940_j84679575208503_2_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Region.frame m ρ
theorem frame_ki : Cert.frame_KernelIdeal := fun m ρ _ => Cert.KernelIdeal.Region.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification of the arguments in their result arrays. -/
theorem algebraic : Cert.algebraic_KernelIdeal_ReferenceIdeal := by
  intro m ρ m' ρ' _ hagree
  refine ⟨fun c => Cert.KernelIdeal.Region.resultA m c, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v23_eq,
    Cert.ReferenceIdeal.RefValue.result_eq]
  exact (Cert.KernelIdeal.Region.result_host m c).symm

end Cert.Proof.Claims

end
-- ==== Proof.RefRead.lean ====
/-
  The reference program's run and its read-at-an-index lemmas, brought in for the value bridge.
-/
import proofs.«122940_j84679575208503_2_alg».proof.Proof.Gen.ReferenceIdeal.Read
-- ==== Proof.lean ====
/-
  The certificate of the contextualizer kernel against its jnp reference: a Pallas kernel that, per block of 256
  query rows, walks the 4096 key rows in eight blocks of 512, accumulating V-weighted cosine similarities times the
  normalised key rows, and at the last block gates the left half of x by the logistic of the accumulator plus a
  bias; against the reference that forms the whole similarity matrix at once. The frames of the two kernels are in
  Proof/BitsLaunch.lean and Proof/IdealLaunch.lean (the same text at the two namespaces), the kernel's value in
  Proof/IdealFinal.lean over the specification Proof/GateSpec.lean, the reference's in Proof/RefGate.lean, and the
  claims are assembled in Proof/Claims.lean.
-/
import proofs.«122940_j84679575208503_2_alg».proof.Defs
import proofs.«122940_j84679575208503_2_alg».proof.Proof.Claims
import proofs.«122940_j84679575208503_2_alg».proof.Proof.RefRead
import proofs.«122940_j84679575208503_2_alg».proof.Proof.Gen.Kernel
import proofs.«122940_j84679575208503_2_alg».proof.Proof.Gen.Kernel.Skeleton
import proofs.«122940_j84679575208503_2_alg».proof.Proof.Gen.Kernel.Launch
import proofs.«122940_j84679575208503_2_alg».proof.Proof.Gen.Kernel.Points
import proofs.«122940_j84679575208503_2_alg».proof.Proof.Gen.KernelIdeal
import proofs.«122940_j84679575208503_2_alg».proof.Proof.Gen.KernelIdeal.Skeleton
import proofs.«122940_j84679575208503_2_alg».proof.Proof.Gen.KernelIdeal.Launch
import proofs.«122940_j84679575208503_2_alg».proof.Proof.Gen.KernelIdeal.Points
import proofs.«122940_j84679575208503_2_alg».proof.Proof.Gen.ReferenceIdeal
import proofs.«122940_j84679575208503_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
